-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536 : Shape := ⟨2, ![256, 65536]⟩
abbrev S64x65536 : Shape := ⟨2, ![64, 65536]⟩
abbrev S256x256 : Shape := ⟨2, ![256, 256]⟩
abbrev S256x64 : Shape := ⟨2, ![256, 64]⟩
abbrev S256x1 : Shape := ⟨2, ![256, 1]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel
  bcast_S_S64x65536 : S_.BroadcastsInDim S64x65536 (![] : Fin 0 → Fin S64x65536.rank)
  reducesTo_S64x65536_S_d0_1 : S64x65536.ReducesTo [0, 1] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S256x1 : S_.BroadcastsInDim S256x1 (![] : Fin 0 → Fin S256x1.rank)
  reducesTo_S256x1_S_d0_1 : S256x1.ReducesTo [0, 1] S_

variable [Facts]

def fn_part6 {F : FTy → Type} [FloatOps F] (main_arg21 : FVec F S256x64 .f32) (main_arg22 : FVec F S256x1 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256x64 .f32 := Host.absf main_arg21
  let main_cst_40 : FVec F S_ .f32 := constant S_ .f32 0x7F800000#32
  let main_v105 : FVec F S256x64 .f32 := broadcastInDim S256x64 ![] bcast_S_S256x64 main_cst_40
  let main_v106 : IVec S256x64 1 := cmpf .olt main_v104 main_v105
  let main_c_41 : IVec S_ 1 := constantI S_ 1 1#1
  let main_v107 : IVec S_ 1 := (fun x v => Host.reduce IntOp.andi x v reducesTo_S256x64_S_d0_1 h_S_) main_v106 main_c_41
  let main_v108 : IVec S_ 1 := andi main_v103 main_v107
  let main_v109 : FVec F S256x1 .f32 := Host.absf main_arg22
  let main_cst_42 : FVec F S_ .f32 := constant S_ .f32 0x7F800000#32
  let main_v110 : FVec F S256x1 .f32 := broadcastInDim S256x1 ![] bcast_S_S256x1 main_cst_42
  let main_v111 : IVec S256x1 1 := cmpf .olt main_v109 main_v110
  let main_c_43 : IVec S_ 1 := constantI S_ 1 1#1
  let main_v112 : IVec S_ 1 := (fun x v => Host.reduce IntOp.andi x v reducesTo_S256x1_S_d0_1 h_S_) main_v111 main_c_43
  let main_v113 : IVec S_ 1 := andi main_v108 main_v112
  main_v113

def fn_part5 {F : FTy → Type} [FloatOps F] (main_arg18 : FVec F S256x256 .f32) (main_arg19 : FVec F S256x256 .f32) (main_arg20 : FVec F S256x256 .f32) (main_arg21 : FVec F S256x64 .f32) (main_arg22 : FVec F S256x1 .f32) (main_v83 : IVec S_ 1) (main_v84 : FVec F S256x1 .f32) (main_cst_32 : FVec F S_ .f32) : IVec S_ 1 :=
  let main_v85 : FVec F S256x1 .f32 := broadcastInDim S256x1 ![] bcast_S_S256x1 main_cst_32
  let main_v86 : IVec S256x1 1 := cmpf .olt main_v84 main_v85
  let main_c_33 : IVec S_ 1 := constantI S_ 1 1#1
  let main_v87 : IVec S_ 1 := (fun x v => Host.reduce IntOp.andi x v reducesTo_S256x1_S_d0_1 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256x256 .f32) (main_arg15 : FVec F S256x256 .f32) (main_arg16 : FVec F S256x64 .f32) (main_arg17 : FVec F S256x1 .f32) (main_arg18 : FVec F S256x256 .f32) (main_arg19 : FVec F S256x256 .f32) (main_arg20 : FVec F S256x256 .f32) (main_arg21 : FVec F S256x64 .f32) (main_arg22 : FVec F S256x1 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256x64 .f32 := Host.absf main_arg16
  let main_cst_30 : FVec F S_ .f32 := constant S_ .f32 0x7F800000#32
  let main_v80 : FVec F S256x64 .f32 := broadcastInDim S256x64 ![] bcast_S_S256x64 main_cst_30
  let main_v81 : IVec S256x64 1 := cmpf .olt main_v79 main_v80
  let main_c_31 : IVec S_ 1 := constantI S_ 1 1#1
  let main_v82 : IVec S_ 1 := (fun x v => Host.reduce IntOp.andi x v reducesTo_S256x64_S_d0_1 h_S_) main_v81 main_c_31
  let main_v83 : IVec S_ 1 := andi main_v78 main_v82
  let main_v84 : FVec F S256x1 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256x64 .f32) (main_arg13 : FVec F S256x1 .f32) (main_arg14 : FVec F S256x256 .f32) (main_arg15 : FVec F S256x256 .f32) (main_arg16 : FVec F S256x64 .f32) (main_arg17 : FVec F S256x1 .f32) (main_arg18 : FVec F S256x256 .f32) (main_arg19 : FVec F S256x256 .f32) (main_arg20 : FVec F S256x256 .f32) (main_arg21 : FVec F S256x64 .f32) (main_arg22 : FVec F S256x1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x64 .f32 := Host.absf main_arg12
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S256x1 .f32 := Host.absf main_arg13
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x64 .f32) (main_arg8 : FVec F S256x1 .f32) (main_arg9 : FVec F S256x256 .f32) (main_arg10 : FVec F S256x256 .f32) (main_arg11 : FVec F S256x256 .f32) (main_arg12 : FVec F S256x64 .f32) (main_arg13 : FVec F S256x1 .f32) (main_arg14 : FVec F S256x256 .f32) (main_arg15 : FVec F S256x256 .f32) (main_arg16 : FVec F S256x64 .f32) (main_arg17 : FVec F S256x1 .f32) (main_arg18 : FVec F S256x256 .f32) (main_arg19 : FVec F S256x256 .f32) (main_arg20 : FVec F S256x256 .f32) (main_arg21 : FVec F S256x64 .f32) (main_arg22 : FVec F S256x1 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256x256 .f32) (main_arg5 : FVec F S256x256 .f32) (main_arg6 : FVec F S256x256 .f32) (main_arg7 : FVec F S256x64 .f32) (main_arg8 : FVec F S256x1 .f32) (main_arg9 : FVec F S256x256 .f32) (main_arg10 : FVec F S256x256 .f32) (main_arg11 : FVec F S256x256 .f32) (main_arg12 : FVec F S256x64 .f32) (main_arg13 : FVec F S256x1 .f32) (main_arg14 : FVec F S256x256 .f32) (main_arg15 : FVec F S256x256 .f32) (main_arg16 : FVec F S256x64 .f32) (main_arg17 : FVec F S256x1 .f32) (main_arg18 : FVec F S256x256 .f32) (main_arg19 : FVec F S256x256 .f32) (main_arg20 : FVec F S256x256 .f32) (main_arg21 : FVec F S256x64 .f32) (main_arg22 : FVec F S256x1 .f32) (main_v13 : IVec S_ 1) (main_v16 : IVec S64x65536 1) : IVec S_ 1 :=
  let main_c_5 : IVec S_ 1 := constantI S_ 1 1#1
  let main_v17 : IVec S_ 1 := (fun x v => Host.reduce IntOp.andi x v reducesTo_S64x65536_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S256x65536 .f32) (main_arg1 : FVec F S256x65536 .f32) (main_arg2 : FVec F S256x65536 .f32) (main_arg3 : FVec F S64x65536 .f32) (main_arg4 : FVec F S256x256 .f32) (main_arg5 : FVec F S256x256 .f32) (main_arg6 : FVec F S256x256 .f32) (main_arg7 : FVec F S256x64 .f32) (main_arg8 : FVec F S256x1 .f32) (main_arg9 : FVec F S256x256 .f32) (main_arg10 : FVec F S256x256 .f32) (main_arg11 : FVec F S256x256 .f32) (main_arg12 : FVec F S256x64 .f32) (main_arg13 : FVec F S256x1 .f32) (main_arg14 : FVec F S256x256 .f32) (main_arg15 : FVec F S256x256 .f32) (main_arg16 : FVec F S256x64 .f32) (main_arg17 : FVec F S256x1 .f32) (main_arg18 : FVec F S256x256 .f32) (main_arg19 : FVec F S256x256 .f32) (main_arg20 : FVec F S256x256 .f32) (main_arg21 : FVec F S256x64 .f32) (main_arg22 : FVec F S256x1 .f32) : IVec S_ 1 :=
  let main_v0 : FVec F S256x65536 .f32 := Host.absf main_arg0
  let main_cst : FVec F S_ .f32 := constant S_ .f32 0x7F800000#32
  let main_v1 : FVec F S256x65536 .f32 := broadcastInDim S256x65536 ![] bcast_S_S256x65536 main_cst
  let main_v2 : IVec S256x65536 1 := cmpf .olt main_v0 main_v1
  let main_c : IVec S_ 1 := constantI S_ 1 1#1
  let main_v3 : IVec S_ 1 := (fun x v => Host.reduce IntOp.andi x v reducesTo_S256x65536_S_d0_1 h_S_) main_v2 main_c
  let main_v4 : FVec F S256x65536 .f32 := Host.absf main_arg1
  let main_cst_0 : FVec F S_ .f32 := constant S_ .f32 0x7F800000#32
  let main_v5 : FVec F S256x65536 .f32 := broadcastInDim S256x65536 ![] bcast_S_S256x65536 main_cst_0
  let main_v6 : IVec S256x65536 1 := cmpf .olt main_v4 main_v5
  let main_c_1 : IVec S_ 1 := constantI S_ 1 1#1
  let main_v7 : IVec S_ 1 := (fun x v => Host.reduce IntOp.andi x v reducesTo_S256x65536_S_d0_1 h_S_) main_v6 main_c_1
  let main_v8 : IVec S_ 1 := andi main_v3 main_v7
  let main_v9 : FVec F S256x65536 .f32 := Host.absf main_arg2
  let main_cst_2 : FVec F S_ .f32 := constant S_ .f32 0x7F800000#32
  let main_v10 : FVec F S256x65536 .f32 := broadcastInDim S256x65536 ![] bcast_S_S256x65536 main_cst_2
  let main_v11 : IVec S256x65536 1 := cmpf .olt main_v9 main_v10
  let main_c_3 : IVec S_ 1 := constantI S_ 1 1#1
  let main_v12 : IVec S_ 1 := (fun x v => Host.reduce IntOp.andi x v reducesTo_S256x65536_S_d0_1 h_S_) main_v11 main_c_3
  let main_v13 : IVec S_ 1 := andi main_v8 main_v12
  let main_v14 : FVec F S64x65536 .f32 := Host.absf main_arg3
  let main_cst_4 : FVec F S_ .f32 := constant S_ .f32 0x7F800000#32
  let main_v15 : FVec F S64x65536 .f32 := broadcastInDim S64x65536 ![] bcast_S_S64x65536 main_cst_4
  let main_v16 : IVec S64x65536 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S256x65536 : Shape := ⟨2, ![256, 65536]⟩
abbrev S64x65536 : Shape := ⟨2, ![64, 65536]⟩
abbrev S256x256 : Shape := ⟨2, ![256, 256]⟩
abbrev S256x64 : Shape := ⟨2, ![256, 64]⟩
abbrev S256x1 : Shape := ⟨2, ![256, 1]⟩
abbrev S_ : Shape := ⟨0, ![]⟩
abbrev S256x832 : Shape := ⟨2, ![256, 832]⟩
abbrev S256x2048 : Shape := ⟨2, ![256, 2048]⟩
abbrev S64x2048 : Shape := ⟨2, ![64, 2048]⟩
abbrev S832x2048 : Shape := ⟨2, ![832, 2048]⟩

abbrev nBuf : Space → Nat
  | .hbm => 36
  | .vmem => 20
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .f32⟩
  | .hbm, ⟨3, _⟩ => ⟨S64x65536, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x64, .f32⟩
  | .hbm, ⟨8, _⟩ => ⟨S256x1, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x64, .f32⟩
  | .hbm, ⟨13, _⟩ => ⟨S256x1, .f32⟩
  | .hbm, ⟨14, _⟩ => ⟨S256x256, .f32⟩
  | .hbm, ⟨15, _⟩ => ⟨S256x256, .f32⟩
  | .hbm, ⟨16, _⟩ => ⟨S256x64, .f32⟩
  | .hbm, ⟨17, _⟩ => ⟨S256x1, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x64, .f32⟩
  | .hbm, ⟨22, _⟩ => ⟨S256x1, .f32⟩
  | .hbm, ⟨23, _⟩ => ⟨S_, .f32⟩
  | .hbm, ⟨24, _⟩ => ⟨S256x256, .f32⟩
  | .hbm, ⟨25, _⟩ => ⟨S256x832, .f32⟩
  | .hbm, ⟨26, _⟩ => ⟨S256x832, .bf16⟩
  | .hbm, ⟨27, _⟩ => ⟨S256x832, .f32⟩
  | .hbm, ⟨28, _⟩ => ⟨S256x832, .bf16⟩
  | .hbm, ⟨29, _⟩ => ⟨S256x832, .f32⟩
  | .hbm, ⟨30, _⟩ => ⟨S256x832, .bf16⟩
  | .hbm, ⟨31, _⟩ => ⟨S256x256, .f32⟩
  | .hbm, ⟨32, _⟩ => ⟨S256x832, .f32⟩
  | .hbm, ⟨33, _⟩ => ⟨S256x832, .bf16⟩
  | .hbm, ⟨34, _⟩ => ⟨S256x65536, .f32⟩
  | .hbm, ⟨35, _⟩ => ⟨S256x65536, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S64x2048, .f32⟩
  | .local _ .vmem, ⟨7, _⟩ => ⟨S64x2048, .f32⟩
  | .local _ .vmem, ⟨8, _⟩ => ⟨S256x832, .bf16⟩
  | .local _ .vmem, ⟨9, _⟩ => ⟨S256x832, .bf16⟩
  | .local _ .vmem, ⟨10, _⟩ => ⟨S256x832, .bf16⟩
  | .local _ .vmem, ⟨11, _⟩ => ⟨S256x832, .bf16⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x832 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x832 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x832 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x832 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S256x256 : S_.BroadcastsInDim S256x256 (![] : Fin 0 → Fin S256x256.rank)
  concatenates_S256x256_S256x256_S256x256_S256x64_S256x832_d1 : Shape.Concatenates [S256x256, S256x256, S256x256, S256x64] S256x832 1
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S64x2048_S64x2048_0_0 : ∀ a, (![0, 0] : Fin 2 → Nat) a + S64x2048.size a ≤ S64x2048.size a
  h_S64x2048 : 0 < S64x2048.numel
  concatenates_S256x2048_S256x2048_S256x2048_S64x2048_S832x2048_d0 : Shape.Concatenates [S256x2048, S256x2048, S256x2048, S64x2048] S832x2048 0
  inb_S256x832_S256x832_0_0 : ∀ a, (![0, 0] : Fin 2 → Nat) a + S256x832.size a ≤ S256x832.size a
  h_S256x832 : 0 < S256x832.numel
  shapeCasts_S256x832_S256x832 : S256x832.ShapeCasts S256x832
  inb_S256x1_S256x1_0_0 : ∀ a, (![0, 0] : Fin 2 → Nat) a + S256x1.size a ≤ S256x1.size a
  h_S256x1 : 0 < S256x1.numel
  broadcasts_S256x1_S256x2048 : S256x1.Broadcasts S256x2048
  dot_S256x832_S832x2048_S256x2048_1_0_0_1_n_n_wf : DotDims.WF S256x832 S832x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x65536.size a
  hwx0_0 : ∀ i : grid0.Coords, EltTy.bits .f32 = 32 ∨ (Rect.block (s := S256x65536) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x65536.size a
  hwx0_1 : ∀ i : grid0.Coords, EltTy.bits .f32 = 32 ∨ (Rect.block (s := S256x65536) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x65536.size a
  hwx0_2 : ∀ i : grid0.Coords, EltTy.bits .f32 = 32 ∨ (Rect.block (s := S256x65536) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x65536.size a
  hwx0_3 : ∀ i : grid0.Coords, EltTy.bits .f32 = 32 ∨ (Rect.block (s := S64x65536) S64x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x832.size a ≤ S256x832.size a
  hwx0_4 : ∀ i : grid0.Coords, EltTy.bits .bf16 = 32 ∨ (Rect.block (s := S256x832) S256x832.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x832.size a ≤ S256x832.size a
  hwx0_5 : ∀ i : grid0.Coords, EltTy.bits .bf16 = 32 ∨ (Rect.block (s := S256x832) S256x832.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x832.size a ≤ S256x832.size a
  hwx0_6 : ∀ i : grid0.Coords, EltTy.bits .bf16 = 32 ∨ (Rect.block (s := S256x832) S256x832.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x832.size a ≤ S256x832.size a
  hwx0_7 : ∀ i : grid0.Coords, EltTy.bits .bf16 = 32 ∨ (Rect.block (s := S256x832) S256x832.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .f32 = 32 ∨ (Rect.block (s := S256x1) S256x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S256x1.size a
  hwx0_11 : ∀ i : grid0.Coords, EltTy.bits .f32 = 32 ∨ (Rect.block (s := S256x1) S256x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S256x65536.size a
  hwx0_12 : ∀ i : grid0.Coords, EltTy.bits .f32 = 32 ∨ (Rect.block (s := S256x65536) S256x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S256x65536.size a
  hwx0_13 : ∀ i : grid0.Coords, EltTy.bits .f32 = 32 ∨ (Rect.block (s := S256x65536) S256x2048.size (cc0_transform_13 i) (hinb0_13 i)).WholeWords (EltTy.packing .f32)

variable [Facts₀]

def dot_S256x832_S832x2048_S256x2048_1_0_0_1_n_n : DotDims S256x832 S832x2048 S256x2048 where
  lhsContracting := [1]
  rhsContracting := [0]
  lhsNonContracting := [0]
  rhsNonContracting := [1]
  lhsBatch := []
  rhsBatch := []
  wf := dot_S256x832_S832x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x832.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x832.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x832.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x832.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg22) S256x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10_0) S256x2048.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v10_1) S256x2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S256x65536 : Shape := ⟨2, ![256, 65536]⟩
abbrev S64x65536 : Shape := ⟨2, ![64, 65536]⟩
abbrev S256x256 : Shape := ⟨2, ![256, 256]⟩
abbrev S256x64 : Shape := ⟨2, ![256, 64]⟩
abbrev S256x1 : Shape := ⟨2, ![256, 1]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .f32⟩
  | .hbm, ⟨3, _⟩ => ⟨S64x65536, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x64, .f32⟩
  | .hbm, ⟨8, _⟩ => ⟨S256x1, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x64, .f32⟩
  | .hbm, ⟨13, _⟩ => ⟨S256x1, .f32⟩
  | .hbm, ⟨14, _⟩ => ⟨S256x256, .f32⟩
  | .hbm, ⟨15, _⟩ => ⟨S256x256, .f32⟩
  | .hbm, ⟨16, _⟩ => ⟨S256x64, .f32⟩
  | .hbm, ⟨17, _⟩ => ⟨S256x1, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x64, .f32⟩
  | .hbm, ⟨22, _⟩ => ⟨S256x1, .f32⟩
  | .hbm, ⟨23, _⟩ => ⟨S256x65536, .f32⟩
  | .hbm, ⟨24, _⟩ => ⟨S256x65536, .f32⟩
  | .hbm, ⟨25, _⟩ => ⟨S256x65536, .f32⟩
  | .hbm, ⟨26, _⟩ => ⟨S256x65536, .f32⟩
  | .hbm, ⟨27, _⟩ => ⟨S256x65536, .f32⟩
  | .hbm, ⟨28, _⟩ => ⟨S256x65536, .f32⟩
  | .hbm, ⟨29, _⟩ => ⟨S256x65536, .f32⟩
  | .hbm, ⟨30, _⟩ => ⟨S256x65536, .f32⟩
  | .hbm, ⟨31, _⟩ => ⟨S256x65536, .f32⟩
  | .hbm, ⟨32, _⟩ => ⟨S256x65536, .f32⟩
  | .hbm, ⟨33, _⟩ => ⟨S256x65536, .f32⟩
  | .hbm, ⟨34, _⟩ => ⟨S_, .f32⟩
  | .hbm, ⟨35, _⟩ => ⟨S256x65536, .f32⟩
  | .hbm, ⟨36, _⟩ => ⟨S256x65536, .f32⟩
  | .hbm, ⟨37, _⟩ => ⟨S_, .f32⟩
  | .hbm, ⟨38, _⟩ => ⟨S256x65536, .f32⟩
  | .hbm, ⟨39, _⟩ => ⟨S256x65536, .f32⟩
  | .hbm, ⟨40, _⟩ => ⟨S256x65536, .f32⟩
  | .hbm, ⟨41, _⟩ => ⟨S256x65536, .f32⟩
  | .hbm, ⟨42, _⟩ => ⟨S256x65536, .f32⟩
  | .hbm, ⟨43, _⟩ => ⟨S256x65536, .f32⟩
  | .hbm, ⟨44, _⟩ => ⟨S256x65536, .f32⟩
  | .hbm, ⟨45, _⟩ => ⟨S256x65536, .f32⟩
  | .hbm, ⟨46, _⟩ => ⟨S256x65536, .f32⟩
  | .hbm, ⟨47, _⟩ => ⟨S256x65536, .f32⟩
  | .hbm, ⟨48, _⟩ => ⟨S256x65536, .f32⟩
  | .hbm, ⟨49, _⟩ => ⟨S256x65536, .f32⟩
  | .hbm, ⟨50, _⟩ => ⟨S256x65536, .f32⟩
  | .hbm, ⟨51, _⟩ => ⟨S_, .f32⟩
  | .hbm, ⟨52, _⟩ => ⟨S256x65536, .f32⟩
  | .hbm, ⟨53, _⟩ => ⟨S256x65536, .f32⟩
  | .hbm, ⟨54, _⟩ => ⟨S_, .f32⟩
  | .hbm, ⟨55, _⟩ => ⟨S256x65536, .f32⟩
  | .hbm, ⟨56, _⟩ => ⟨S256x65536, .f32⟩
  | .hbm, ⟨57, _⟩ => ⟨S256x65536, .f32⟩
  | .hbm, ⟨58, _⟩ => ⟨S256x65536, .f32⟩
  | .hbm, ⟨59, _⟩ => ⟨S256x65536, .f32⟩
  | .hbm, ⟨60, _⟩ => ⟨S256x65536, .f32⟩
  | .hbm, ⟨61, _⟩ => ⟨S256x65536, .f32⟩
  | .hbm, ⟨62, _⟩ => ⟨S256x65536, .f32⟩
  | .hbm, ⟨63, _⟩ => ⟨S256x65536, .f32⟩
  | .hbm, ⟨64, _⟩ => ⟨S256x65536, .f32⟩
  | .hbm, ⟨65, _⟩ => ⟨S256x65536, .f32⟩
  | .hbm, ⟨66, _⟩ => ⟨S256x65536, .f32⟩
  | .hbm, ⟨67, _⟩ => ⟨S256x65536, .f32⟩
  | .hbm, ⟨68, _⟩ => ⟨S256x65536, .f32⟩
  | .hbm, ⟨69, _⟩ => ⟨S256x65536, .f32⟩
  | .hbm, ⟨70, _⟩ => ⟨S256x65536, .f32⟩
  | .hbm, ⟨71, _⟩ => ⟨S256x65536, .f32⟩
  | .hbm, ⟨72, _⟩ => ⟨S256x65536, .f32⟩
  | .hbm, ⟨73, _⟩ => ⟨S256x65536, .f32⟩
  | .hbm, ⟨74, _⟩ => ⟨S256x65536, .f32⟩
  | .hbm, ⟨75, _⟩ => ⟨S256x65536, .f32⟩
  | .hbm, ⟨76, _⟩ => ⟨S256x65536, .f32⟩
  | .hbm, ⟨77, _⟩ => ⟨S256x65536, .f32⟩
  | .hbm, ⟨78, _⟩ => ⟨S256x65536, .f32⟩
  | .hbm, ⟨79, _⟩ => ⟨S_, .f32⟩
  | .hbm, ⟨80, _⟩ => ⟨S256x65536, .f32⟩
  | .hbm, ⟨81, _⟩ => ⟨S256x65536, .f32⟩
  | .hbm, ⟨82, _⟩ => ⟨S_, .f32⟩
  | .hbm, ⟨83, _⟩ => ⟨S256x65536, .f32⟩
  | .hbm, ⟨84, _⟩ => ⟨S256x65536, .f32⟩
  | .hbm, ⟨85, _⟩ => ⟨S256x65536, .f32⟩
  | .hbm, ⟨86, _⟩ => ⟨S256x65536, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_3 : Ref sig .tc := ⟨.hbm, 79, rfl⟩
abbrev main_v52 : Ref sig .tc := ⟨.hbm, 80, rfl⟩
abbrev main_v53 : Ref sig .tc := ⟨.hbm, 81, rfl⟩
abbrev main_cst_4 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  bcast_S256x1_S256x65536_0_1 : S256x1.BroadcastsInDim S256x65536 (![0, 1] : Fin 2 → Fin S256x65536.rank)
  bcast_S_S256x65536 : S_.BroadcastsInDim S256x65536 (![] : Fin 0 → Fin S256x65536.rank)
  dot_S256x256_S256x65536_S256x65536_1_0_0_1_n_n_wf : DotDims.WF S256x256 S256x65536 S256x65536 [1] [0] [0] [1] [] []
  dot_S256x64_S64x65536_S256x65536_1_0_0_1_n_n_wf : DotDims.WF S256x64 S64x65536 S256x65536 [1] [0] [0] [1] [] []

variable [Facts₀]

def dot_S256x256_S256x65536_S256x65536_1_0_0_1_n_n : DotDims S256x256 S256x65536 S256x65536 where
  lhsContracting := [1]
  rhsContracting := [0]
  lhsNonContracting := [0]
  rhsNonContracting := [1]
  lhsBatch := []
  rhsBatch := []
  wf := dot_S256x256_S256x65536_S256x65536_1_0_0_1_n_n_wf
def dot_S256x64_S64x65536_S256x65536_1_0_0_1_n_n : DotDims S256x64 S64x65536 S256x65536 where
  lhsContracting := [1]
  rhsContracting := [0]
  lhsNonContracting := [0]
  rhsNonContracting := [1]
  lhsBatch := []
  rhsBatch := []
  wf := dot_S256x64_S64x65536_S256x65536_1_0_0_1_n_n_wf

class Facts : Prop extends Facts₀ where

variable [Facts]
-- ==== Proof.FrameK.lean ====
/-
  The program runs to its end, faults nowhere, and leaves its argument arrays as it found them; and what its two
  result arrays hold afterwards is named.

  Before the one pipelined call the host stacks each gate's four weight matrices side by side and narrows them;
  none of those operations writes an argument. The call walks a grid of 32 points. At each point the body finds, in
  the staging buffers of its twelve input windows, the windows' blocks — the four state windows are fetched at every
  point, the eight weight and bias windows once, their block index never moving — loads them whole, and stores one
  whole block into each of its two output windows: the new hidden state (window 12) and the new cell state
  (window 13), each a pure function of the input blocks. The blocks written back at the 32 points make up the two
  result arrays; no input array is written.
-/
import proofs.«161503_j2791728742744_2_alg».proof.Proof.Gen.Kernel.Launch
import proofs.«161503_j2791728742744_2_alg».proof.Proof.Gen.Kernel.Skeleton
import proofs.«161503_j2791728742744_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What core `c`'s buffers hold when the call is entered: the launch contents run through the host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- The program is its host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched its block index has not moved. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched its block index has not moved. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched its block index has not moved. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the unchanged arguments -/

/-- A run that ends with every window's array at what the proof data computes and every other buffer as the call
    found it leaves the twenty-three arguments unchanged: a staged argument is an input window's array, which no
    write-back touches; the others are not windows' arrays at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats 0 c).arrAt_in 8 rfl _).trans ((hA c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 9).trans (((dats 0 c).arrAt_in 9 rfl _).trans ((hA c 9).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 10).trans (((dats 0 c).arrAt_in 10 rfl _).trans ((hA c 10).trans (V_main_arg17 m c))),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).1 11).trans (((dats 0 c).arrAt_in 11 rfl _).trans ((hA c 11).trans (V_main_arg22 m c)))⟩) h

/-! ## What the body stores -/

abbrev rState : Rect S256x2048 := Rect.unit (s := S256x2048) ![0, 0] S256x2048.size inb_S256x2048_S256x2048_0_0
abbrev rTopic : Rect S64x2048 := Rect.unit (s := S64x2048) ![0, 0] S64x2048.size inb_S64x2048_S64x2048_0_0
abbrev rWeight : Rect S256x832 := Rect.unit (s := S256x832) ![0, 0] S256x832.size inb_S256x832_S256x832_0_0
abbrev rBias : Rect S256x1 := Rect.unit (s := S256x1) ![0, 0] S256x1.size inb_S256x1_S256x1_0_0

/-- The new cell state of a block, from the ten input blocks it depends on. -/
def cellOfBlocks (x0 x1 x2 : Vec F S256x2048 .f32) (x3 : Vec F S64x2048 .f32) (x4 x5 x6 : Vec F S256x832 .bf16)
    (x8 x9 x10 : Vec F S256x1 .f32) : FVec F S256x2048 .f32 :=
  k0_pay3 (View.ld x0 rState) (View.ld x1 rState) (View.ld x2 rState) (View.ld x3 rTopic) (View.ld x4 rWeight) (View.ld x8 rBias)
    (View.ld x5 rWeight) (View.ld x9 rBias) (View.ld x6 rWeight) (View.ld x10 rBias)

/-- Output window 13's buffer after the body: the new cell state, stored whole. -/
def out13 (x0 x1 x2 : Vec F S256x2048 .f32) (x3 : Vec F S64x2048 .f32) (x4 x5 x6 : Vec F S256x832 .bf16)
    (x8 x9 x10 : Vec F S256x1 .f32) : Vec F S256x2048 .f32 :=
  View.canon [⟨rState, cellOfBlocks x0 x1 x2 x3 x4 x5 x6 x8 x9 x10⟩]

/-- Output window 12's buffer after the body: the new hidden state, stored whole. -/
def out12 (x0 x1 x2 : Vec F S256x2048 .f32) (x3 : Vec F S64x2048 .f32) (x4 x5 x6 x7 : Vec F S256x832 .bf16)
    (x8 x9 x10 x11 : Vec F S256x1 .f32) : Vec F S256x2048 .f32 :=
  View.canon [⟨rState, k0_pay1 (k0_pay2 (View.ld x0 rState) (View.ld x1 rState) (View.ld x2 rState) (View.ld x3 rTopic))
    (cellOfBlocks x0 x1 x2 x3 x4 x5 x6 x8 x9 x10) (View.ld x7 rWeight) (View.ld x11 rBias)⟩]

/-- One whole-block store covers the buffer. -/
theorem cover_state (p0 : Vec F S256x2048 .f32) (y : S256x2048.Idx) :
    ∃ pc ∈ ([⟨rState, p0⟩] : List (View.Piece (Elt F) S256x2048 .f32)), y ∈ pc.1.set :=
  View.cover_of_tiled [⟨rState, p0⟩] S256x2048.size (by rfl) y

/-! ## The body's triple -/

set_option maxHeartbeats 4000000 in
/-- The body on whole staging memrefs, the inputs' at contents `xW` and the outputs' at anything, runs to its end holding the
    inputs' as they were and the outputs' at the new hidden and cell states of the inputs'. -/
theorem sound_kernel (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S64x2048 .f32) (harg4 : arg4.IsWhole) (arg5 : Memref sig .tc .vmem S256x832 .bf16) (harg5 : arg5.IsWhole) (arg6 : Memref sig .tc .vmem S256x832 .bf16) (harg6 : arg6.IsWhole) (arg7 : Memref sig .tc .vmem S256x832 .bf16) (harg7 : arg7.IsWhole) (arg8 : Memref sig .tc .vmem S256x832 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x2048 .f32) (harg13 : arg13.IsWhole) (arg14 : Memref sig .tc .vmem S256x2048 .f32) (harg14 : arg14.IsWhole)
    (x0 : Vec F S256x2048 .f32) (x1 : Vec F S256x2048 .f32) (x2 : Vec F S256x2048 .f32) (x3 : Vec F S64x2048 .f32) (x4 : Vec F S256x832 .bf16) (x5 : Vec F S256x832 .bf16) (x6 : Vec F S256x832 .bf16) (x7 : Vec F S256x832 .bf16) (x8 : Vec F S256x1 .f32) (x9 : Vec F S256x1 .f32) (x10 : Vec F S256x1 .f32) (x11 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x1 x2 x3 x4 x5 x6 x7 x8 x9 x10 x11) ∗ owns (c : Thread nD τ) arg14 fullShare (out13 x0 x1 x2 x3 x4 x5 x6 x8 x9 x10)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover_state _)
  iexists _; isplitr
  swap; · iexact H13
  ipureintro
  try dsimp only
  exact View.read_writes_eq_canon _ _ _ (cover_state _)

/-! ## The pipeline's proof data -/

/-- On core `c`: the arrays as the call finds them; after the body at point `t` each input's buffer at its block, output
    window 12's at the new hidden state of the point's input blocks and window 13's at the new cell state; nothing else
    is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out13 (iblk m c 0 t) (iblk m c 1 t) (iblk m c 2 t) (iblk m c 3 t) (iblk m c 4 t) (iblk m c 5 t) (iblk m c 6 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: its inputs' memrefs hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, nothing faulting, with every window's array at what the blocks
    written back make of it and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.Kernel.Frame

end
-- ==== Proof.FrameKI.lean ====
/-
  The program runs to its end, faults nowhere, and leaves its argument arrays as it found them; and what its two
  result arrays hold afterwards is named.

  Before the one pipelined call the host stacks each gate's four weight matrices side by side and narrows them;
  none of those operations writes an argument. The call walks a grid of 32 points. At each point the body finds, in
  the staging buffers of its twelve input windows, the windows' blocks — the four state windows are fetched at every
  point, the eight weight and bias windows once, their block index never moving — loads them whole, and stores one
  whole block into each of its two output windows: the new hidden state (window 12) and the new cell state
  (window 13), each a pure function of the input blocks. The blocks written back at the 32 points make up the two
  result arrays; no input array is written.
-/
import proofs.«161503_j2791728742744_2_alg».proof.Proof.Gen.KernelIdeal.Launch
import proofs.«161503_j2791728742744_2_alg».proof.Proof.Gen.KernelIdeal.Skeleton
import proofs.«161503_j2791728742744_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What core `c`'s buffers hold when the call is entered: the launch contents run through the host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- The program is its host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched its block index has not moved. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched its block index has not moved. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched its block index has not moved. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the unchanged arguments -/

/-- A run that ends with every window's array at what the proof data computes and every other buffer as the call
    found it leaves the twenty-three arguments unchanged: a staged argument is an input window's array, which no
    write-back touches; the others are not windows' arrays at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats 0 c).arrAt_in 8 rfl _).trans ((hA c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 9).trans (((dats 0 c).arrAt_in 9 rfl _).trans ((hA c 9).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 10).trans (((dats 0 c).arrAt_in 10 rfl _).trans ((hA c 10).trans (V_main_arg17 m c))),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).1 11).trans (((dats 0 c).arrAt_in 11 rfl _).trans ((hA c 11).trans (V_main_arg22 m c)))⟩) h

/-! ## What the body stores -/

abbrev rState : Rect S256x2048 := Rect.unit (s := S256x2048) ![0, 0] S256x2048.size inb_S256x2048_S256x2048_0_0
abbrev rTopic : Rect S64x2048 := Rect.unit (s := S64x2048) ![0, 0] S64x2048.size inb_S64x2048_S64x2048_0_0
abbrev rWeight : Rect S256x832 := Rect.unit (s := S256x832) ![0, 0] S256x832.size inb_S256x832_S256x832_0_0
abbrev rBias : Rect S256x1 := Rect.unit (s := S256x1) ![0, 0] S256x1.size inb_S256x1_S256x1_0_0

/-- The new cell state of a block, from the ten input blocks it depends on. -/
def cellOfBlocks (x0 x1 x2 : Vec F S256x2048 .f32) (x3 : Vec F S64x2048 .f32) (x4 x5 x6 : Vec F S256x832 .bf16)
    (x8 x9 x10 : Vec F S256x1 .f32) : FVec F S256x2048 .f32 :=
  k0_pay3 (View.ld x0 rState) (View.ld x1 rState) (View.ld x2 rState) (View.ld x3 rTopic) (View.ld x4 rWeight) (View.ld x8 rBias)
    (View.ld x5 rWeight) (View.ld x9 rBias) (View.ld x6 rWeight) (View.ld x10 rBias)

/-- Output window 13's buffer after the body: the new cell state, stored whole. -/
def out13 (x0 x1 x2 : Vec F S256x2048 .f32) (x3 : Vec F S64x2048 .f32) (x4 x5 x6 : Vec F S256x832 .bf16)
    (x8 x9 x10 : Vec F S256x1 .f32) : Vec F S256x2048 .f32 :=
  View.canon [⟨rState, cellOfBlocks x0 x1 x2 x3 x4 x5 x6 x8 x9 x10⟩]

/-- Output window 12's buffer after the body: the new hidden state, stored whole. -/
def out12 (x0 x1 x2 : Vec F S256x2048 .f32) (x3 : Vec F S64x2048 .f32) (x4 x5 x6 x7 : Vec F S256x832 .bf16)
    (x8 x9 x10 x11 : Vec F S256x1 .f32) : Vec F S256x2048 .f32 :=
  View.canon [⟨rState, k0_pay1 (k0_pay2 (View.ld x0 rState) (View.ld x1 rState) (View.ld x2 rState) (View.ld x3 rTopic))
    (cellOfBlocks x0 x1 x2 x3 x4 x5 x6 x8 x9 x10) (View.ld x7 rWeight) (View.ld x11 rBias)⟩]

/-- One whole-block store covers the buffer. -/
theorem cover_state (p0 : Vec F S256x2048 .f32) (y : S256x2048.Idx) :
    ∃ pc ∈ ([⟨rState, p0⟩] : List (View.Piece (Elt F) S256x2048 .f32)), y ∈ pc.1.set :=
  View.cover_of_tiled [⟨rState, p0⟩] S256x2048.size (by rfl) y

/-! ## The body's triple -/

set_option maxHeartbeats 4000000 in
/-- The body on whole staging memrefs, the inputs' at contents `xW` and the outputs' at anything, runs to its end holding the
    inputs' as they were and the outputs' at the new hidden and cell states of the inputs'. -/
theorem sound_kernel (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S64x2048 .f32) (harg4 : arg4.IsWhole) (arg5 : Memref sig .tc .vmem S256x832 .bf16) (harg5 : arg5.IsWhole) (arg6 : Memref sig .tc .vmem S256x832 .bf16) (harg6 : arg6.IsWhole) (arg7 : Memref sig .tc .vmem S256x832 .bf16) (harg7 : arg7.IsWhole) (arg8 : Memref sig .tc .vmem S256x832 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x2048 .f32) (harg13 : arg13.IsWhole) (arg14 : Memref sig .tc .vmem S256x2048 .f32) (harg14 : arg14.IsWhole)
    (x0 : Vec F S256x2048 .f32) (x1 : Vec F S256x2048 .f32) (x2 : Vec F S256x2048 .f32) (x3 : Vec F S64x2048 .f32) (x4 : Vec F S256x832 .bf16) (x5 : Vec F S256x832 .bf16) (x6 : Vec F S256x832 .bf16) (x7 : Vec F S256x832 .bf16) (x8 : Vec F S256x1 .f32) (x9 : Vec F S256x1 .f32) (x10 : Vec F S256x1 .f32) (x11 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x1 x2 x3 x4 x5 x6 x7 x8 x9 x10 x11) ∗ owns (c : Thread nD τ) arg14 fullShare (out13 x0 x1 x2 x3 x4 x5 x6 x8 x9 x10)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover_state _)
  iexists _; isplitr
  swap; · iexact H13
  ipureintro
  try dsimp only
  exact View.read_writes_eq_canon _ _ _ (cover_state _)

/-! ## The pipeline's proof data -/

/-- On core `c`: the arrays as the call finds them; after the body at point `t` each input's buffer at its block, output
    window 12's at the new hidden state of the point's input blocks and window 13's at the new cell state; nothing else
    is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out13 (iblk m c 0 t) (iblk m c 1 t) (iblk m c 2 t) (iblk m c 3 t) (iblk m c 4 t) (iblk m c 5 t) (iblk m c 6 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: its inputs' memrefs hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, nothing faulting, with every window's array at what the blocks
    written back make of it and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.KernelIdeal.Frame

end
-- ==== Proof.CellSpec.lean ====
/-
  A long short-term memory cell with a topic term, entry by entry, over the extended reals.

  The states `x`, `h`, `c` are 256 × 65536 arrays (one column per batch element), the topic 64 × 65536. Each of
  the four gates has a pre-activation at row `p` and column `q`: the sum of row `p` of each of its weight
  matrices against column `q` of the array it multiplies, plus the gate's bias at row `p`. The input and forget
  gates see `x`, `h`, `c` and the topic; the candidate sees `x`, `h` and the topic; the output gate sees all
  four, its hidden-state term SUBTRACTED. The new cell state is `σ(f)·c + σ(i)·tanh(candidate)`, the new hidden
  state `σ(o)·tanh(cell)`, with `σ z = 1 / (1 + e^(-z))`.

  Also here: the same pre-activations written over ONE stacked weight row of length 832 = 256 + 256 + 256 + 64
  (the four matrices of a gate side by side), which is how a program that stacks its weights computes them.
-/
import Idealize.ShloMosaic.Lib.ValueIdx
import Idealize.ShloMosaic.PureOps.Ideal

noncomputable section

namespace Cert.Cell

open Idealize.ShloMosaic Idealize.ShloMosaic.ValueIdx
open scoped BigOperators

abbrev State : Shape := ⟨2, ![256, 65536]⟩
abbrev Topic : Shape := ⟨2, ![64, 65536]⟩
abbrev Wsq : Shape := ⟨2, ![256, 256]⟩
abbrev Wtp : Shape := ⟨2, ![256, 64]⟩
abbrev Bias : Shape := ⟨2, ![256, 1]⟩

/-- The twenty-three argument arrays, by name. -/
structure Inputs where
  x : FVec Ideal State .f32
  h : FVec Ideal State .f32
  c : FVec Ideal State .f32
  topic : FVec Ideal Topic .f32
  w_ii : FVec Ideal Wsq .f32
  w_hi : FVec Ideal Wsq .f32
  w_ci : FVec Ideal Wsq .f32
  w_bi : FVec Ideal Wtp .f32
  bias_i : FVec Ideal Bias .f32
  w_if : FVec Ideal Wsq .f32
  w_hf : FVec Ideal Wsq .f32
  w_cf : FVec Ideal Wsq .f32
  w_bf : FVec Ideal Wtp .f32
  bias_f : FVec Ideal Bias .f32
  w_ic : FVec Ideal Wsq .f32
  w_hc : FVec Ideal Wsq .f32
  w_bc : FVec Ideal Wtp .f32
  bias_c : FVec Ideal Bias .f32
  w_io : FVec Ideal Wsq .f32
  w_ho : FVec Ideal Wsq .f32
  w_co : FVec Ideal Wsq .f32
  w_bo : FVec Ideal Wtp .f32
  bias_o : FVec Ideal Bias .f32

/-- Row `p` of a square weight matrix against column `q` of a state array. -/
def dotS (w : FVec Ideal Wsq .f32) (s : FVec Ideal State .f32) (p : Fin 256) (q : Fin 65536) : EReal :=
  ∑ k : Fin 256, w (ix2 p k) * s (ix2 k q)

/-- Row `p` of a topic weight matrix against column `q` of the topic array. -/
def dotT (w : FVec Ideal Wtp .f32) (s : FVec Ideal Topic .f32) (p : Fin 256) (q : Fin 65536) : EReal :=
  ∑ k : Fin 64, w (ix2 p k) * s (ix2 k q)

/-- The input gate's pre-activation. -/
def preI (A : Inputs) (p : Fin 256) (q : Fin 65536) : EReal :=
  dotS A.w_ii A.x p q + dotS A.w_hi A.h p q + dotS A.w_ci A.c p q + dotT A.w_bi A.topic p q + A.bias_i (ix2 p 0)

/-- The forget gate's pre-activation. -/
def preF (A : Inputs) (p : Fin 256) (q : Fin 65536) : EReal :=
  dotS A.w_if A.x p q + dotS A.w_hf A.h p q + dotS A.w_cf A.c p q + dotT A.w_bf A.topic p q + A.bias_f (ix2 p 0)

/-- The candidate's pre-activation: no cell-state term. -/
def preC (A : Inputs) (p : Fin 256) (q : Fin 65536) : EReal :=
  dotS A.w_ic A.x p q + dotS A.w_hc A.h p q + dotT A.w_bc A.topic p q + A.bias_c (ix2 p 0)

/-- The output gate's pre-activation: the hidden-state term is subtracted. -/
def preO (A : Inputs) (p : Fin 256) (q : Fin 65536) : EReal :=
  dotS A.w_io A.x p q - dotS A.w_ho A.h p q + dotS A.w_co A.c p q + dotT A.w_bo A.topic p q + A.bias_o (ix2 p 0)

/-- The new cell state at row `p`, column `q`. -/
def cell (A : Inputs) (p : Fin 256) (q : Fin 65536) : EReal :=
  Ideal.logistic (preF A p q) * A.c (ix2 p q) + Ideal.logistic (preI A p q) * Ideal.tanh (preC A p q)

/-- The new hidden state at row `p`, column `q`. -/
def hidden (A : Inputs) (p : Fin 256) (q : Fin 65536) : EReal :=
  Ideal.logistic (preO A p q) * Ideal.tanh (cell A p q)

/-- The two results as whole arrays. -/
def cellArr (A : Inputs) : FVec Ideal State .f32 := fun i => cell A (i 0) (i 1)
def hiddenArr (A : Inputs) : FVec Ideal State .f32 := fun i => hidden A (i 0) (i 1)

/-! ## Stacked weights and column blocks -/

/-- Entry `k` of the stacked row `p`: four matrices side by side, of widths 256, 256, 256 and 64. -/
def stack (w1 w2 w3 : Fin 256 → Fin 256 → EReal) (w4 : Fin 256 → Fin 64 → EReal) (p : Fin 256) (k : Fin 832) : EReal :=
  if h1 : k.val < 256 then w1 p ⟨k.val, h1⟩
  else if h2 : k.val < 512 then w2 p ⟨k.val - 256, by omega⟩
  else if h3 : k.val < 768 then w3 p ⟨k.val - 512, by omega⟩
  else w4 p ⟨k.val - 768, by have := k.isLt; omega⟩

/-- A square weight matrix by coordinates. -/
def sq (w : FVec Ideal Wsq .f32) (p k : Fin 256) : EReal := w (ix2 p k)
/-- A topic weight matrix by coordinates. -/
def tp (w : FVec Ideal Wtp .f32) (p : Fin 256) (k : Fin 64) : EReal := w (ix2 p k)

/-- Column `r` of the `t`-th block of 2048 columns. -/
def col (t : Fin 32) (r : Fin 2048) : Fin 65536 := ⟨2048 * t.val + r.val, by have := t.isLt; have := r.isLt; omega⟩

end Cert.Cell

end
-- ==== Proof.BlockReads.lean ====
/-
  Where the pipelined call's blocks sit in their arrays.

  The grid has 32 points. At point `t` each of the three state windows, the topic window and the two output windows
  holds the block of all rows and columns `2048·t … 2048·t + 2047` of its array; each of the eight weight and bias
  windows holds its whole array at every point. So entry `(p, r)` of a state block at point `t` is entry
  `(p, 2048·t + r)` of the array, and the 32 blocks of an output window tile its array: column `q` lies in the block
  of point `q / 2048`.
-/
import proofs.«161503_j2791728742744_2_alg».proof.Proof.FrameKI
import proofs.«161503_j2791728742744_2_alg».proof.Proof.CellSpec
import Idealize.ShloMosaic.Lib.Pipeline.Value
import Idealize.ShloMosaic.Lib.ValueIdx

set_option maxRecDepth 16384

noncomputable section

namespace Cert.KernelIdeal.CellRun

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.Cell

variable (m : (ℓ : Loc nD τ sig) → Buf (Elt Ideal) ℓ)

/-- A grid point as a number below 32. -/
def pt (t : Fin cfg0.N) : Fin 32 := ⟨t.val, lt_of_lt_of_eq t.isLt N_0⟩

/-! ## The index maps, decided over the grid -/

theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idx3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
theorem idx12 : ∀ t : Fin cfg0.N, win0_12.index t (0 : Fin 2) = 0 ∧ win0_12.index t (1 : Fin 2) = t.val :=
  (by decide +kernel : ∀ t : Fin grid0.N, win0_12.index t (0 : Fin 2) = 0 ∧ win0_12.index t (1 : Fin 2) = t.val)
theorem idx13 : ∀ t : Fin cfg0.N, win0_13.index t (0 : Fin 2) = 0 ∧ win0_13.index t (1 : Fin 2) = t.val :=
  (by decide +kernel : ∀ t : Fin grid0.N, win0_13.index t (0 : Fin 2) = 0 ∧ win0_13.index t (1 : Fin 2) = t.val)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-! ## The input blocks read at an entry -/

/-- Entry `(p, r)` of window 0's block at point `t` is entry `(p, 2048·t + r)` of its array. -/
theorem iblk0_at (c : Dev nD) (t : Fin cfg0.N) (p : Fin 256) (r : Fin 2048) :
    iblk m c 0 t (ix2 p r) = (V m c main_arg0 : S256x65536.Idx → Elt Ideal .f32) (ix2 p (col (pt t) r)) := by
  obtain ⟨e0, e1⟩ := idx0 t
  show V m c main_arg0 (((cfg0.win 0).blk t).view.emb (ix2 p r)) = _
  congr 1
  funext a
  apply Fin.ext
  match a with
  | ⟨0, _⟩ => show win0_0.index t (0 : Fin 2) * 256 + 1 * p.val = p.val; omega
  | ⟨1, _⟩ => show win0_0.index t (1 : Fin 2) * 2048 + 1 * r.val = 2048 * t.val + r.val; omega
/-- Entry `(p, r)` of window 1's block at point `t` is entry `(p, 2048·t + r)` of its array. -/
theorem iblk1_at (c : Dev nD) (t : Fin cfg0.N) (p : Fin 256) (r : Fin 2048) :
    iblk m c 1 t (ix2 p r) = (V m c main_arg1 : S256x65536.Idx → Elt Ideal .f32) (ix2 p (col (pt t) r)) := by
  obtain ⟨e0, e1⟩ := idx1 t
  show V m c main_arg1 (((cfg0.win 1).blk t).view.emb (ix2 p r)) = _
  congr 1
  funext a
  apply Fin.ext
  match a with
  | ⟨0, _⟩ => show win0_1.index t (0 : Fin 2) * 256 + 1 * p.val = p.val; omega
  | ⟨1, _⟩ => show win0_1.index t (1 : Fin 2) * 2048 + 1 * r.val = 2048 * t.val + r.val; omega
/-- Entry `(p, r)` of window 2's block at point `t` is entry `(p, 2048·t + r)` of its array. -/
theorem iblk2_at (c : Dev nD) (t : Fin cfg0.N) (p : Fin 256) (r : Fin 2048) :
    iblk m c 2 t (ix2 p r) = (V m c main_arg2 : S256x65536.Idx → Elt Ideal .f32) (ix2 p (col (pt t) r)) := by
  obtain ⟨e0, e1⟩ := idx2 t
  show V m c main_arg2 (((cfg0.win 2).blk t).view.emb (ix2 p r)) = _
  congr 1
  funext a
  apply Fin.ext
  match a with
  | ⟨0, _⟩ => show win0_2.index t (0 : Fin 2) * 256 + 1 * p.val = p.val; omega
  | ⟨1, _⟩ => show win0_2.index t (1 : Fin 2) * 2048 + 1 * r.val = 2048 * t.val + r.val; omega
/-- Entry `(p, r)` of window 3's block at point `t` is entry `(p, 2048·t + r)` of its array. -/
theorem iblk3_at (c : Dev nD) (t : Fin cfg0.N) (p : Fin 64) (r : Fin 2048) :
    iblk m c 3 t (ix2 p r) = (V m c main_arg3 : S64x65536.Idx → Elt Ideal .f32) (ix2 p (col (pt t) r)) := by
  obtain ⟨e0, e1⟩ := idx3 t
  show V m c main_arg3 (((cfg0.win 3).blk t).view.emb (ix2 p r)) = _
  congr 1
  funext a
  apply Fin.ext
  match a with
  | ⟨0, _⟩ => show win0_3.index t (0 : Fin 2) * 64 + 1 * p.val = p.val; omega
  | ⟨1, _⟩ => show win0_3.index t (1 : Fin 2) * 2048 + 1 * r.val = 2048 * t.val + r.val; omega
/-- Entry `(p, r)` of window 4's block at point `t` is entry `(p, r)` of its array: the block is the whole array. -/
theorem iblk4_at (c : Dev nD) (t : Fin cfg0.N) (p : Fin 256) (r : Fin 832) :
    iblk m c 4 t (ix2 p r) = (V m c main_v2 : S256x832.Idx → Elt Ideal .bf16) (ix2 p r) := by
  obtain ⟨e0, e1⟩ := idx4 t
  show V m c main_v2 (((cfg0.win 4).blk t).view.emb (ix2 p r)) = _
  congr 1
  funext a
  apply Fin.ext
  match a with
  | ⟨0, _⟩ => show win0_4.index t (0 : Fin 2) * 256 + 1 * p.val = p.val; omega
  | ⟨1, _⟩ => show win0_4.index t (1 : Fin 2) * 832 + 1 * r.val = r.val; omega
/-- Entry `(p, r)` of window 5's block at point `t` is entry `(p, r)` of its array: the block is the whole array. -/
theorem iblk5_at (c : Dev nD) (t : Fin cfg0.N) (p : Fin 256) (r : Fin 832) :
    iblk m c 5 t (ix2 p r) = (V m c main_v4 : S256x832.Idx → Elt Ideal .bf16) (ix2 p r) := by
  obtain ⟨e0, e1⟩ := idx5 t
  show V m c main_v4 (((cfg0.win 5).blk t).view.emb (ix2 p r)) = _
  congr 1
  funext a
  apply Fin.ext
  match a with
  | ⟨0, _⟩ => show win0_5.index t (0 : Fin 2) * 256 + 1 * p.val = p.val; omega
  | ⟨1, _⟩ => show win0_5.index t (1 : Fin 2) * 832 + 1 * r.val = r.val; omega
/-- Entry `(p, r)` of window 6's block at point `t` is entry `(p, r)` of its array: the block is the whole array. -/
theorem iblk6_at (c : Dev nD) (t : Fin cfg0.N) (p : Fin 256) (r : Fin 832) :
    iblk m c 6 t (ix2 p r) = (V m c main_v6 : S256x832.Idx → Elt Ideal .bf16) (ix2 p r) := by
  obtain ⟨e0, e1⟩ := idx6 t
  show V m c main_v6 (((cfg0.win 6).blk t).view.emb (ix2 p r)) = _
  congr 1
  funext a
  apply Fin.ext
  match a with
  | ⟨0, _⟩ => show win0_6.index t (0 : Fin 2) * 256 + 1 * p.val = p.val; omega
  | ⟨1, _⟩ => show win0_6.index t (1 : Fin 2) * 832 + 1 * r.val = r.val; omega
/-- Entry `(p, r)` of window 7's block at point `t` is entry `(p, r)` of its array: the block is the whole array. -/
theorem iblk7_at (c : Dev nD) (t : Fin cfg0.N) (p : Fin 256) (r : Fin 832) :
    iblk m c 7 t (ix2 p r) = (V m c main_v9 : S256x832.Idx → Elt Ideal .bf16) (ix2 p r) := by
  obtain ⟨e0, e1⟩ := idx7 t
  show V m c main_v9 (((cfg0.win 7).blk t).view.emb (ix2 p r)) = _
  congr 1
  funext a
  apply Fin.ext
  match a with
  | ⟨0, _⟩ => show win0_7.index t (0 : Fin 2) * 256 + 1 * p.val = p.val; omega
  | ⟨1, _⟩ => show win0_7.index t (1 : Fin 2) * 832 + 1 * r.val = r.val; omega
/-- Entry `(p, r)` of window 8's block at point `t` is entry `(p, r)` of its array: the block is the whole array. -/
theorem iblk8_at (c : Dev nD) (t : Fin cfg0.N) (p : Fin 256) (r : Fin 1) :
    iblk m c 8 t (ix2 p r) = (V m c main_arg8 : S256x1.Idx → Elt Ideal .f32) (ix2 p r) := by
  obtain ⟨e0, e1⟩ := idx8 t
  show V m c main_arg8 (((cfg0.win 8).blk t).view.emb (ix2 p r)) = _
  congr 1
  funext a
  apply Fin.ext
  match a with
  | ⟨0, _⟩ => show win0_8.index t (0 : Fin 2) * 256 + 1 * p.val = p.val; omega
  | ⟨1, _⟩ => show win0_8.index t (1 : Fin 2) * 1 + 1 * r.val = r.val; omega
/-- Entry `(p, r)` of window 9's block at point `t` is entry `(p, r)` of its array: the block is the whole array. -/
theorem iblk9_at (c : Dev nD) (t : Fin cfg0.N) (p : Fin 256) (r : Fin 1) :
    iblk m c 9 t (ix2 p r) = (V m c main_arg13 : S256x1.Idx → Elt Ideal .f32) (ix2 p r) := by
  obtain ⟨e0, e1⟩ := idx9 t
  show V m c main_arg13 (((cfg0.win 9).blk t).view.emb (ix2 p r)) = _
  congr 1
  funext a
  apply Fin.ext
  match a with
  | ⟨0, _⟩ => show win0_9.index t (0 : Fin 2) * 256 + 1 * p.val = p.val; omega
  | ⟨1, _⟩ => show win0_9.index t (1 : Fin 2) * 1 + 1 * r.val = r.val; omega
/-- Entry `(p, r)` of window 10's block at point `t` is entry `(p, r)` of its array: the block is the whole array. -/
theorem iblk10_at (c : Dev nD) (t : Fin cfg0.N) (p : Fin 256) (r : Fin 1) :
    iblk m c 10 t (ix2 p r) = (V m c main_arg17 : S256x1.Idx → Elt Ideal .f32) (ix2 p r) := by
  obtain ⟨e0, e1⟩ := idx10 t
  show V m c main_arg17 (((cfg0.win 10).blk t).view.emb (ix2 p r)) = _
  congr 1
  funext a
  apply Fin.ext
  match a with
  | ⟨0, _⟩ => show win0_10.index t (0 : Fin 2) * 256 + 1 * p.val = p.val; omega
  | ⟨1, _⟩ => show win0_10.index t (1 : Fin 2) * 1 + 1 * r.val = r.val; omega
/-- Entry `(p, r)` of window 11's block at point `t` is entry `(p, r)` of its array: the block is the whole array. -/
theorem iblk11_at (c : Dev nD) (t : Fin cfg0.N) (p : Fin 256) (r : Fin 1) :
    iblk m c 11 t (ix2 p r) = (V m c main_arg22 : S256x1.Idx → Elt Ideal .f32) (ix2 p r) := by
  obtain ⟨e0, e1⟩ := idx11 t
  show V m c main_arg22 (((cfg0.win 11).blk t).view.emb (ix2 p r)) = _
  congr 1
  funext a
  apply Fin.ext
  match a with
  | ⟨0, _⟩ => show win0_11.index t (0 : Fin 2) * 256 + 1 * p.val = p.val; omega
  | ⟨1, _⟩ => show win0_11.index t (1 : Fin 2) * 1 + 1 * r.val = r.val; omega

/-! ## The output blocks tile their arrays -/

/-- An entry of the array lies in point `t`'s block of window 12 iff each coordinate is in the block's range. -/
theorem mem_blk12 (t : Fin cfg0.N) (i : S256x65536.Idx) :
    i ∈ ((cfg0.win 12).blk t).view.set ↔ ∀ a : Fin 2, win0_12.index t a * S256x2048.size a ≤ (i a).val ∧ (i a).val < win0_12.index t a * S256x2048.size a + S256x2048.size a := by
  show i ∈ ((View.whole main_v10_0).slice (win0_12.rect t)).set ↔ _
  rw [View.set_slice_whole, Rect.mem_set_unit]
  exact Iff.rfl

/-- Every entry lies in the block of the point its column names. -/
theorem cover12 (i : S256x65536.Idx) : ∃ t : Fin cfg0.N, (cfg0.win 12).flush t = true ∧ i ∈ ((cfg0.win 12).blk t).view.set := by
  have hi0 : (i 0).val < 256 := (i 0).isLt
  have hi1 : (i 1).val < 65536 := (i 1).isLt
  have hN : cfg0.N = 32 := N_0
  let t : Fin cfg0.N := ⟨(i 1).val / 2048, by rw [hN]; omega⟩
  have ht : t.val = (i 1).val / 2048 := rfl
  obtain ⟨e0, e1⟩ := idx12 t
  refine ⟨t, flush0_12 t, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 2048 ≤ (i 1).val ∧ (i 1).val < win0_12.index t (1 : Fin 2) * 2048 + 2048; omega

/-- Entry `(p, r)` of window 12's block at point `t` sits at `(p, 2048·t + r)` of the array. -/
theorem emb12 (t : Fin cfg0.N) (p : Fin 256) (r : Fin 2048) :
    (((cfg0.win 12).blk t).view.emb (ix2 p r) : S256x65536.Idx) = ix2 p (col (pt t) r) := by
  obtain ⟨e0, e1⟩ := idx12 t
  funext a
  apply Fin.ext
  match a with
  | ⟨0, _⟩ => show win0_12.index t (0 : Fin 2) * 256 + 1 * p.val = p.val; omega
  | ⟨1, _⟩ => show win0_12.index t (1 : Fin 2) * 2048 + 1 * r.val = 2048 * t.val + r.val; omega

/-- An entry of the array lies in point `t`'s block of window 13 iff each coordinate is in the block's range. -/
theorem mem_blk13 (t : Fin cfg0.N) (i : S256x65536.Idx) :
    i ∈ ((cfg0.win 13).blk t).view.set ↔ ∀ a : Fin 2, win0_13.index t a * S256x2048.size a ≤ (i a).val ∧ (i a).val < win0_13.index t a * S256x2048.size a + S256x2048.size a := by
  show i ∈ ((View.whole main_v10_1).slice (win0_13.rect t)).set ↔ _
  rw [View.set_slice_whole, Rect.mem_set_unit]
  exact Iff.rfl

/-- Every entry lies in the block of the point its column names. -/
theorem cover13 (i : S256x65536.Idx) : ∃ t : Fin cfg0.N, (cfg0.win 13).flush t = true ∧ i ∈ ((cfg0.win 13).blk t).view.set := by
  have hi0 : (i 0).val < 256 := (i 0).isLt
  have hi1 : (i 1).val < 65536 := (i 1).isLt
  have hN : cfg0.N = 32 := N_0
  let t : Fin cfg0.N := ⟨(i 1).val / 2048, by rw [hN]; omega⟩
  have ht : t.val = (i 1).val / 2048 := rfl
  obtain ⟨e0, e1⟩ := idx13 t
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 2048 ≤ (i 1).val ∧ (i 1).val < win0_13.index t (1 : Fin 2) * 2048 + 2048; omega

/-- Entry `(p, r)` of window 13's block at point `t` sits at `(p, 2048·t + r)` of the array. -/
theorem emb13 (t : Fin cfg0.N) (p : Fin 256) (r : Fin 2048) :
    (((cfg0.win 13).blk t).view.emb (ix2 p r) : S256x65536.Idx) = ix2 p (col (pt t) r) := by
  obtain ⟨e0, e1⟩ := idx13 t
  funext a
  apply Fin.ext
  match a with
  | ⟨0, _⟩ => show win0_13.index t (0 : Fin 2) * 256 + 1 * p.val = p.val; omega
  | ⟨1, _⟩ => show win0_13.index t (1 : Fin 2) * 2048 + 1 * r.val = 2048 * t.val + r.val; omega

end Cert.KernelIdeal.CellRun

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.GateAlgebra.lean ====
/-
  Algebra of one gate's pre-activation when the gate's four weight matrices are laid side by side.

  A stacked weight row has length 832 = 256 + 256 + 256 + 64, and the column it is multiplied against is the four
  input columns laid end to end in the same way. Three facts, all over the extended reals:

  * the sum over the 832 positions of (stacked row entry) × (stacked column entry) is the sum of the four partial
    sums, one per matrix — only associativity of addition, after splitting the range of summation into its four
    spans and reading the stacked row and column on each span;
  * a span whose weights are all zero contributes nothing;
  * a span whose weights are the NEGATED entries of a matrix contributes minus that matrix's partial sum, provided
    the weights and the inputs are real numbers (for infinite values "minus a sum" and "the sum of the minuses"
    differ: ⊤ + ⊥ = ⊥ on both sides of the negation).
-/
import proofs.«161503_j2791728742744_2_alg».proof.Proof.CellSpec
import Mathlib.Data.EReal.Basic
import Mathlib.Algebra.BigOperators.Fin

noncomputable section

namespace Cert.Cell

open scoped BigOperators

/-! ## Four pieces laid end to end -/

/-- Entry `k` of four pieces of lengths 256, 256, 256 and 64 laid end to end. -/
def vcat (a b c : Fin 256 → EReal) (d : Fin 64 → EReal) (k : Fin 832) : EReal :=
  if h1 : k.val < 256 then a ⟨k.val, h1⟩
  else if h2 : k.val < 512 then b ⟨k.val - 256, by omega⟩
  else if h3 : k.val < 768 then c ⟨k.val - 512, by omega⟩
  else d ⟨k.val - 768, by have := k.isLt; omega⟩

/-- A stacked weight row is its four rows laid end to end. -/
theorem stack_eq_vcat (w1 w2 w3 : Fin 256 → Fin 256 → EReal) (w4 : Fin 256 → Fin 64 → EReal) (p : Fin 256) (k : Fin 832) :
    stack w1 w2 w3 w4 p k = vcat (w1 p) (w2 p) (w3 p) (w4 p) k := rfl

section Pieces
variable (a b c : Fin 256 → EReal) (d : Fin 64 → EReal)

/-- On the first span the laid-out column is the first piece … -/
theorem vcat_first (k : Fin 256) (hk : k.val < 832) : vcat a b c d ⟨k.val, hk⟩ = a k := by
  unfold vcat
  rw [dif_pos (show (⟨k.val, hk⟩ : Fin 832).val < 256 from k.isLt)]

/-- … on the second the second … -/
theorem vcat_second (k : Fin 256) (hk : 256 + k.val < 832) : vcat a b c d ⟨256 + k.val, hk⟩ = b k := by
  unfold vcat
  rw [dif_neg (show ¬(⟨256 + k.val, hk⟩ : Fin 832).val < 256 from by show ¬256 + k.val < 256; omega),
    dif_pos (show (⟨256 + k.val, hk⟩ : Fin 832).val < 512 from by show 256 + k.val < 512; have := k.isLt; omega)]
  exact congrArg b (Fin.ext (by show 256 + k.val - 256 = k.val; omega))

/-- … on the third the third … -/
theorem vcat_third (k : Fin 256) (hk : 512 + k.val < 832) : vcat a b c d ⟨512 + k.val, hk⟩ = c k := by
  unfold vcat
  rw [dif_neg (show ¬(⟨512 + k.val, hk⟩ : Fin 832).val < 256 from by show ¬512 + k.val < 256; omega),
    dif_neg (show ¬(⟨512 + k.val, hk⟩ : Fin 832).val < 512 from by show ¬512 + k.val < 512; omega),
    dif_pos (show (⟨512 + k.val, hk⟩ : Fin 832).val < 768 from by show 512 + k.val < 768; have := k.isLt; omega)]
  exact congrArg c (Fin.ext (by show 512 + k.val - 512 = k.val; omega))

/-- … and on the last the last. -/
theorem vcat_fourth (k : Fin 64) (hk : 768 + k.val < 832) : vcat a b c d ⟨768 + k.val, hk⟩ = d k := by
  unfold vcat
  rw [dif_neg (show ¬(⟨768 + k.val, hk⟩ : Fin 832).val < 256 from by show ¬768 + k.val < 256; omega),
    dif_neg (show ¬(⟨768 + k.val, hk⟩ : Fin 832).val < 512 from by show ¬768 + k.val < 512; omega),
    dif_neg (show ¬(⟨768 + k.val, hk⟩ : Fin 832).val < 768 from by show ¬768 + k.val < 768; omega)]
  exact congrArg d (Fin.ext (by show 768 + k.val - 768 = k.val; omega))

end Pieces

/-! ## A sum over the 832 positions, span by span -/

/-- A sum over 832 = 256 + 256 + 256 + 64 positions is the sum of the sums over the four spans. -/
theorem sum_fin832 (f : Fin 832 → EReal) :
    ∑ k : Fin 832, f k
      = ((∑ k : Fin 256, f ⟨k.val, by have := k.isLt; omega⟩ + ∑ k : Fin 256, f ⟨256 + k.val, by have := k.isLt; omega⟩)
          + ∑ k : Fin 256, f ⟨512 + k.val, by have := k.isLt; omega⟩)
        + ∑ k : Fin 64, f ⟨768 + k.val, by have := k.isLt; omega⟩ := by
  have e1 := Fin.sum_univ_add (M := EReal) (a := 256 + 256 + 256) (b := 64) f
  have e2 := Fin.sum_univ_add (M := EReal) (a := 256 + 256) (b := 256) (fun i => f (Fin.castAdd 64 i))
  have e3 := Fin.sum_univ_add (M := EReal) (a := 256) (b := 256) (fun i => f (Fin.castAdd 64 (Fin.castAdd 256 i)))
  rw [e2, e3] at e1
  exact e1

/-- **The stacked sum.** Row `p` of four matrices laid side by side, against four columns laid end to end, is the sum
    of the four rows against their own columns. -/
theorem sum_stack (w1 w2 w3 : Fin 256 → Fin 256 → EReal) (w4 : Fin 256 → Fin 64 → EReal)
    (a b c : Fin 256 → EReal) (d : Fin 64 → EReal) (p : Fin 256) :
    ∑ k : Fin 832, stack w1 w2 w3 w4 p k * vcat a b c d k
      = ((∑ k : Fin 256, w1 p k * a k + ∑ k : Fin 256, w2 p k * b k) + ∑ k : Fin 256, w3 p k * c k)
        + ∑ k : Fin 64, w4 p k * d k := by
  rw [sum_fin832]
  refine congrArg₂ (· + ·) (congrArg₂ (· + ·) (congrArg₂ (· + ·) ?_ ?_) ?_) ?_
  · exact Finset.sum_congr rfl fun k _ => by rw [stack_eq_vcat, vcat_first, vcat_first]
  · exact Finset.sum_congr rfl fun k _ => by rw [stack_eq_vcat, vcat_second, vcat_second]
  · exact Finset.sum_congr rfl fun k _ => by rw [stack_eq_vcat, vcat_third, vcat_third]
  · exact Finset.sum_congr rfl fun k _ => by rw [stack_eq_vcat, vcat_fourth, vcat_fourth]

/-! ## A span of zero weights -/

/-- A span whose weights are all zero contributes nothing. -/
theorem sum_zero_mul {n : ℕ} (c : Fin n → EReal) : ∑ k : Fin n, (0 : EReal) * c k = 0 := by
  simp only [zero_mul, Finset.sum_const_zero]

/-- Adding a span of zero weights changes nothing. -/
theorem add_sum_zero_mul {n : ℕ} (x : EReal) (c : Fin n → EReal) : x + ∑ k : Fin n, (0 : EReal) * c k = x := by
  rw [sum_zero_mul, add_zero]

/-! ## A span of negated weights -/

/-- A finite sum of real numbers, taken in the extended reals, is the real sum. -/
theorem sum_coe_real {n : ℕ} (f : Fin n → ℝ) : ∑ k : Fin n, ((f k : ℝ) : EReal) = ((∑ k : Fin n, f k : ℝ) : EReal) := by
  refine Finset.induction_on (Finset.univ : Finset (Fin n)) ?_ fun i s hi ih => ?_
  · simp only [Finset.sum_empty, EReal.coe_zero]
  · rw [Finset.sum_insert hi, Finset.sum_insert hi, ih, EReal.coe_add]

/-- **The negated span.** With real weights and real inputs, adding the span of negated weights is subtracting the
    span. -/
theorem add_sum_neg_mul {n : ℕ} (x : EReal) (w h : Fin n → EReal)
    (hw : ∀ k, ∃ r : ℝ, w k = (r : EReal)) (hh : ∀ k, ∃ r : ℝ, h k = (r : EReal)) :
    x + ∑ k : Fin n, (-(w k)) * h k = x - ∑ k : Fin n, w k * h k := by
  choose wr hwr using hw
  choose hr hhr using hh
  have e1 : ∀ k, (-(w k)) * h k = ((-(wr k * hr k) : ℝ) : EReal) := fun k => by
    rw [hwr k, hhr k, EReal.coe_neg, EReal.coe_mul, neg_mul]
  have e2 : ∀ k, w k * h k = ((wr k * hr k : ℝ) : EReal) := fun k => by
    rw [hwr k, hhr k, EReal.coe_mul]
  rw [Finset.sum_congr rfl fun k _ => e1 k, Finset.sum_congr rfl fun k _ => e2 k, sum_coe_real, sum_coe_real,
    Finset.sum_neg_distrib, EReal.coe_neg, sub_eq_add_neg]

end Cert.Cell

end
-- ==== Proof.PayloadAtIndex.lean ====
/-
  The two values the cell's program stores, read at one entry of a block of 2048 columns, are the specification's
  new cell state and new hidden state at that entry.

  The program lays the four input blocks end to end into one 832-row array and multiplies it by each gate's stacked
  256 × 832 weight matrix, adding the gate's bias down the columns. Read at row `p`, column `r`:

  * the laid-out array at row `k` is the entry of whichever block `k` falls in;
  * a gate's product plus bias is the sum over the 832 positions of stacked weight × laid-out input, plus the bias
    at row `p` — by the algebra of stacked sums, the four partial sums of the gate plus its bias;
  * the candidate's third weight block is zero and drops out; the output gate's second block is the negated matrix
    and, its entries and the hidden state being real numbers, turns into a subtraction.
-/
import proofs.«161503_j2791728742744_2_alg».proof.Proof.Gen.KernelIdeal.Skeleton
import proofs.«161503_j2791728742744_2_alg».proof.Proof.CellSpec
import proofs.«161503_j2791728742744_2_alg».proof.Proof.LibPlainMatmul
import proofs.«161503_j2791728742744_2_alg».proof.Proof.GateAlgebra

noncomputable section

namespace Cert.KernelIdeal.CellValue

open Idealize.ShloMosaic Idealize.ShloMosaic.ValueIdx
open Cert.KernelIdeal Cert.KernelIdeal.Gen Cert.Cell Cert.LibPlainMatmul
open scoped BigOperators

/-! ## A column of biases spread along the columns -/

/-- An [a, 1] array broadcast to [a, b] reads, at (p, q), the operand at (p, 0). -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-! ## Four blocks laid end to end along the rows -/

/-- Four arrays of 256, 256, 256 and 64 rows laid end to end along the rows, read at row `c`, column `r`: the entry
    of the array that row `c` falls in, at `c` less the rows before it. -/
theorem concat4_at (x0 x1 x2 : FVec Ideal S256x2048 .bf16) (x3 : FVec Ideal S64x2048 .bf16) (c : Fin 832) (r : Fin 2048) :
    concatenate S832x2048 (0 : Fin 2) [⟨S256x2048, x0⟩, ⟨S256x2048, x1⟩, ⟨S256x2048, x2⟩, ⟨S64x2048, x3⟩]
        concatenates_S256x2048_S256x2048_S256x2048_S64x2048_S832x2048_d0 (ix2 c r)
      = vcat (fun k => x0 (ix2 k r)) (fun k => x1 (ix2 k r)) (fun k => x2 (ix2 k r)) (fun k => x3 (ix2 k r)) c := by
  unfold vcat
  by_cases h1 : c.val < 256
  · rw [dif_pos h1]
    refine concatenate_apply_piece (t := S832x2048) (α := Ideal .bf16) (0 : Fin 2)
            [⟨S256x2048, x0⟩, ⟨S256x2048, x1⟩, ⟨S256x2048, x2⟩, ⟨S64x2048, x3⟩]
            concatenates_S256x2048_S256x2048_S256x2048_S64x2048_S832x2048_d0 (ix2 c r) 0 (show (0 : ℕ) < 4 by decide)
            S256x2048 x0 rfl rfl 0 rfl (ix2 (⟨c.val, h1⟩ : Fin 256) r) (fun b hb => ?_) ?_
    · match b with
      | ⟨0, _⟩ => exact absurd rfl hb
      | ⟨1, _⟩ => rfl
    · show 0 + c.val = c.val
      omega
  · rw [dif_neg h1]
    by_cases h2 : c.val < 512
    · rw [dif_pos h2]
      refine concatenate_apply_piece (t := S832x2048) (α := Ideal .bf16) (0 : Fin 2)
            [⟨S256x2048, x0⟩, ⟨S256x2048, x1⟩, ⟨S256x2048, x2⟩, ⟨S64x2048, x3⟩]
            concatenates_S256x2048_S256x2048_S256x2048_S64x2048_S832x2048_d0 (ix2 c r) 1 (show (1 : ℕ) < 4 by decide)
            S256x2048 x1 rfl rfl 256 rfl (ix2 (⟨c.val - 256, by omega⟩ : Fin 256) r) (fun b hb => ?_) ?_
      · match b with
        | ⟨0, _⟩ => exact absurd rfl hb
        | ⟨1, _⟩ => rfl
      · show 256 + (c.val - 256) = c.val
        omega
    · rw [dif_neg h2]
      by_cases h3 : c.val < 768
      · rw [dif_pos h3]
        refine concatenate_apply_piece (t := S832x2048) (α := Ideal .bf16) (0 : Fin 2)
            [⟨S256x2048, x0⟩, ⟨S256x2048, x1⟩, ⟨S256x2048, x2⟩, ⟨S64x2048, x3⟩]
            concatenates_S256x2048_S256x2048_S256x2048_S64x2048_S832x2048_d0 (ix2 c r) 2 (show (2 : ℕ) < 4 by decide)
            S256x2048 x2 rfl rfl 512 rfl (ix2 (⟨c.val - 512, by omega⟩ : Fin 256) r) (fun b hb => ?_) ?_
        · match b with
          | ⟨0, _⟩ => exact absurd rfl hb
          | ⟨1, _⟩ => rfl
        · show 512 + (c.val - 512) = c.val
          omega
      · rw [dif_neg h3]
        refine concatenate_apply_piece (t := S832x2048) (α := Ideal .bf16) (0 : Fin 2)
            [⟨S256x2048, x0⟩, ⟨S256x2048, x1⟩, ⟨S256x2048, x2⟩, ⟨S64x2048, x3⟩]
            concatenates_S256x2048_S256x2048_S256x2048_S64x2048_S832x2048_d0 (ix2 c r) 3 (show (3 : ℕ) < 4 by decide)
            S64x2048 x3 rfl rfl 768 rfl (ix2 (⟨c.val - 768, by have := c.isLt; omega⟩ : Fin 64) r) (fun b hb => ?_) ?_
        · match b with
          | ⟨0, _⟩ => exact absurd rfl hb
          | ⟨1, _⟩ => rfl
        · show 768 + (c.val - 768) = c.val
          omega

/-- The laid-out input array at row `c`, column `r`: the entry of the input block that row `c` falls in (the casts
    to the narrower format change nothing over the extended reals). -/
theorem pay2_at (v0 v1 v2 : Vec Ideal S256x2048 .f32) (v3 : Vec Ideal S64x2048 .f32) (c : Fin 832) (r : Fin 2048) :
    k0_pay2 (F := Ideal) v0 v1 v2 v3 (ix2 c r)
      = vcat (fun k => v0 (ix2 k r)) (fun k => v1 (ix2 k r)) (fun k => v2 (ix2 k r)) (fun k => v3 (ix2 k r)) c :=
  concat4_at (truncf .bf16 v0 bitsLt_bf16_f32) (truncf .bf16 v1 bitsLt_bf16_f32) (truncf .bf16 v2 bitsLt_bf16_f32)
    (truncf .bf16 v3 bitsLt_bf16_f32) c r

/-! ## One stacked gate at an entry -/

/-- A gate's block as the program computes it: the gate's stacked weights times the laid-out inputs, into a zero
    accumulator, plus the gate's bias spread along the columns. -/
def gateBlock (v0 v1 v2 : Vec Ideal S256x2048 .f32) (v3 : Vec Ideal S64x2048 .f32)
    (W : FVec Ideal S256x832 .bf16) (b : FVec Ideal S256x1 .f32) : FVec Ideal S256x2048 .f32 :=
  addf (matmul dot_S256x832_S832x2048_S256x2048_1_0_0_1_n_n none (shapeCast S256x832 W shapeCasts_S256x832_S256x832)
      (k0_pay2 (F := Ideal) v0 v1 v2 v3) (constant (F := Ideal) S256x2048 .f32 0x00000000#32))
    (broadcastTo S256x2048 b broadcasts_S256x1_S256x2048)

/-- A gate's block at row `p`, column `r`: the four partial sums of the gate — one per weight matrix, against its
    own input block's column `r` — plus the bias at row `p`. -/
theorem gate_at (v0 v1 v2 : Vec Ideal S256x2048 .f32) (v3 : Vec Ideal S64x2048 .f32)
    (W : FVec Ideal S256x832 .bf16) (b : FVec Ideal S256x1 .f32)
    (w1 w2 w3 : Fin 256 → Fin 256 → EReal) (w4 : Fin 256 → Fin 64 → EReal)
    (hW : ∀ (p : Fin 256) (k : Fin 832), W (ix2 p k) = stack w1 w2 w3 w4 p k) (p : Fin 256) (r : Fin 2048) :
    gateBlock v0 v1 v2 v3 W b (ix2 p r)
      = (((∑ k : Fin 256, w1 p k * v0 (ix2 k r) + ∑ k : Fin 256, w2 p k * v1 (ix2 k r))
            + ∑ k : Fin 256, w3 p k * v2 (ix2 k r)) + ∑ k : Fin 64, w4 p k * v3 (ix2 k r))
          + b (ix2 p (0 : Fin 1)) := by
  unfold gateBlock
  rw [addf_apply]
  refine congrArg₂ (· + ·) ?_ (broadcastTo_a1_ab_apply b broadcasts_S256x1_S256x2048 p r)
  refine ((matmul_zero_plain dot_S256x832_S832x2048_S256x2048_1_0_0_1_n_n_wf _ _ p r).trans
    (Finset.sum_congr rfl fun k _ => ?_)).trans
    (sum_stack w1 w2 w3 w4 (fun k => v0 (ix2 k r)) (fun k => v1 (ix2 k r)) (fun k => v2 (ix2 k r))
      (fun k => v3 (ix2 k r)) p)
  rw [shapeCast_self, hW p k, pay2_at]

/-- The same with the input blocks read off the whole arrays: block `t`'s column `r` is column `col t r`. -/
theorem gate_spec (A : Cert.Cell.Inputs) (t : Fin 32)
    (v0 v1 v2 : Vec Ideal S256x2048 .f32) (v3 : Vec Ideal S64x2048 .f32)
    (h0 : ∀ (p : Fin 256) (r : Fin 2048), v0 (ix2 p r) = A.x (ix2 p (col t r)))
    (h1 : ∀ (p : Fin 256) (r : Fin 2048), v1 (ix2 p r) = A.h (ix2 p (col t r)))
    (h2 : ∀ (p : Fin 256) (r : Fin 2048), v2 (ix2 p r) = A.c (ix2 p (col t r)))
    (h3 : ∀ (p : Fin 64) (r : Fin 2048), v3 (ix2 p r) = A.topic (ix2 p (col t r)))
    (W : FVec Ideal S256x832 .bf16) (b : FVec Ideal S256x1 .f32) (bs : FVec Ideal Bias .f32)
    (w1 w2 w3 : Fin 256 → Fin 256 → EReal) (w4 : Fin 256 → Fin 64 → EReal)
    (hW : ∀ (p : Fin 256) (k : Fin 832), W (ix2 p k) = stack w1 w2 w3 w4 p k)
    (hb : ∀ p : Fin 256, b (ix2 p (0 : Fin 1)) = bs (ix2 p (0 : Fin 1))) (p : Fin 256) (r : Fin 2048) :
    gateBlock v0 v1 v2 v3 W b (ix2 p r)
      = (((∑ k : Fin 256, w1 p k * A.x (ix2 k (col t r)) + ∑ k : Fin 256, w2 p k * A.h (ix2 k (col t r)))
            + ∑ k : Fin 256, w3 p k * A.c (ix2 k (col t r))) + ∑ k : Fin 64, w4 p k * A.topic (ix2 k (col t r)))
          + bs (ix2 p (0 : Fin 1)) := by
  rw [gate_at v0 v1 v2 v3 W b w1 w2 w3 w4 hW p r, hb p]
  simp only [h0, h1, h2, h3]

/-! ## The four gates -/

section Gates
variable (A : Cert.Cell.Inputs) (t : Fin 32)
    (v0 v1 v2 : Vec Ideal S256x2048 .f32) (v3 : Vec Ideal S64x2048 .f32)
    (h0 : ∀ (p : Fin 256) (r : Fin 2048), v0 (ix2 p r) = A.x (ix2 p (col t r)))
    (h1 : ∀ (p : Fin 256) (r : Fin 2048), v1 (ix2 p r) = A.h (ix2 p (col t r)))
    (h2 : ∀ (p : Fin 256) (r : Fin 2048), v2 (ix2 p r) = A.c (ix2 p (col t r)))
    (h3 : ∀ (p : Fin 64) (r : Fin 2048), v3 (ix2 p r) = A.topic (ix2 p (col t r)))
include h0 h1 h2 h3

/-- The input gate's block is the input gate's pre-activation. -/
theorem gateI_at (W : FVec Ideal S256x832 .bf16) (b : FVec Ideal S256x1 .f32)
    (hW : ∀ (p : Fin 256) (k : Fin 832), W (ix2 p k) = stack (sq A.w_ii) (sq A.w_hi) (sq A.w_ci) (tp A.w_bi) p k)
    (hb : ∀ p : Fin 256, b (ix2 p (0 : Fin 1)) = A.bias_i (ix2 p (0 : Fin 1))) (p : Fin 256) (r : Fin 2048) :
    gateBlock v0 v1 v2 v3 W b (ix2 p r) = preI A p (col t r) :=
  gate_spec A t v0 v1 v2 v3 h0 h1 h2 h3 W b A.bias_i _ _ _ _ hW hb p r

/-- The forget gate's block is the forget gate's pre-activation. -/
theorem gateF_at (W : FVec Ideal S256x832 .bf16) (b : FVec Ideal S256x1 .f32)
    (hW : ∀ (p : Fin 256) (k : Fin 832), W (ix2 p k) = stack (sq A.w_if) (sq A.w_hf) (sq A.w_cf) (tp A.w_bf) p k)
    (hb : ∀ p : Fin 256, b (ix2 p (0 : Fin 1)) = A.bias_f (ix2 p (0 : Fin 1))) (p : Fin 256) (r : Fin 2048) :
    gateBlock v0 v1 v2 v3 W b (ix2 p r) = preF A p (col t r) :=
  gate_spec A t v0 v1 v2 v3 h0 h1 h2 h3 W b A.bias_f _ _ _ _ hW hb p r

/-- The candidate's block is the candidate's pre-activation: its zero weight block against the cell state drops
    out. -/
theorem gateC_at (W : FVec Ideal S256x832 .bf16) (b : FVec Ideal S256x1 .f32)
    (hW : ∀ (p : Fin 256) (k : Fin 832), W (ix2 p k) = stack (sq A.w_ic) (sq A.w_hc) (fun _ _ => 0) (tp A.w_bc) p k)
    (hb : ∀ p : Fin 256, b (ix2 p (0 : Fin 1)) = A.bias_c (ix2 p (0 : Fin 1))) (p : Fin 256) (r : Fin 2048) :
    gateBlock v0 v1 v2 v3 W b (ix2 p r) = preC A p (col t r) := by
  have e : (dotS A.w_ic A.x p (col t r) + dotS A.w_hc A.h p (col t r))
        + ∑ k : Fin 256, (0 : EReal) * A.c (ix2 k (col t r))
      = dotS A.w_ic A.x p (col t r) + dotS A.w_hc A.h p (col t r) := add_sum_zero_mul _ _
  exact (gate_spec A t v0 v1 v2 v3 h0 h1 h2 h3 W b A.bias_c _ _ _ _ hW hb p r).trans
    (congrArg (fun z => (z + dotT A.w_bc A.topic p (col t r)) + A.bias_c (ix2 p (0 : Fin 1))) e)

/-- The output gate's block is the output gate's pre-activation: its negated weight block against the hidden state,
    weights and hidden state being real numbers, is the subtracted term. -/
theorem gateO_at (W : FVec Ideal S256x832 .bf16) (b : FVec Ideal S256x1 .f32)
    (hW : ∀ (p : Fin 256) (k : Fin 832),
      W (ix2 p k) = stack (sq A.w_io) (fun p k => - sq A.w_ho p k) (sq A.w_co) (tp A.w_bo) p k)
    (hb : ∀ p : Fin 256, b (ix2 p (0 : Fin 1)) = A.bias_o (ix2 p (0 : Fin 1)))
    (hfin_h : ∀ i, ∃ x : ℝ, A.h i = (x : EReal)) (hfin_w : ∀ i, ∃ x : ℝ, A.w_ho i = (x : EReal))
    (p : Fin 256) (r : Fin 2048) :
    gateBlock v0 v1 v2 v3 W b (ix2 p r) = preO A p (col t r) := by
  have e : dotS A.w_io A.x p (col t r) + ∑ k : Fin 256, (-(A.w_ho (ix2 p k))) * A.h (ix2 k (col t r))
      = dotS A.w_io A.x p (col t r) - dotS A.w_ho A.h p (col t r) :=
    add_sum_neg_mul _ (fun k => A.w_ho (ix2 p k)) (fun k => A.h (ix2 k (col t r)))
      (fun k => hfin_w (ix2 p k)) (fun k => hfin_h (ix2 k (col t r)))
  exact (gate_spec A t v0 v1 v2 v3 h0 h1 h2 h3 W b A.bias_o _ _ _ _ hW hb p r).trans
    (congrArg (fun z => ((z + dotS A.w_co A.c p (col t r)) + dotT A.w_bo A.topic p (col t r))
      + A.bias_o (ix2 p (0 : Fin 1))) e)

end Gates

/-! ## The two stored values -/

/-- The new cell state as the program computes it, over the gates' blocks. -/
theorem pay3_eq (v0 v1 v2 : Vec Ideal S256x2048 .f32) (v3 : Vec Ideal S64x2048 .f32)
    (v9 : Vec Ideal S256x832 .bf16) (v12 : Vec Ideal S256x1 .f32) (v16 : Vec Ideal S256x832 .bf16)
    (v19 : Vec Ideal S256x1 .f32) (v23 : Vec Ideal S256x832 .bf16) (v26 : Vec Ideal S256x1 .f32) :
    k0_pay3 (F := Ideal) v0 v1 v2 v3 v9 v12 v16 v19 v23 v26
      = addf (mulf (logistic (gateBlock v0 v1 v2 v3 v16 v19)) v2)
          (mulf (logistic (gateBlock v0 v1 v2 v3 v9 v12)) (tanh (gateBlock v0 v1 v2 v3 v23 v26))) := rfl

/-- The new hidden state as the program computes it, over the output gate's block and the new cell state. -/
theorem pay1_eq (v0 v1 v2 : Vec Ideal S256x2048 .f32) (v3 : Vec Ideal S64x2048 .f32)
    (v32 : FVec Ideal S256x2048 .f32) (v33 : Vec Ideal S256x832 .bf16) (v36 : Vec Ideal S256x1 .f32) :
    k0_pay1 (F := Ideal) (k0_pay2 (F := Ideal) v0 v1 v2 v3) v32 v33 v36
      = mulf (logistic (gateBlock v0 v1 v2 v3 v33 v36)) (tanh v32) := rfl

/-- **The stored cell state.** At row `p`, column `r` of block `t` it is the specification's new cell state at row
    `p`, column `col t r`. -/
theorem pay3_at (A : Cert.Cell.Inputs) (t : Fin 32)
    (v0 v1 v2 : Vec Ideal S256x2048 .f32) (v3 : Vec Ideal S64x2048 .f32)
    (v9 v16 v23 : Vec Ideal S256x832 .bf16) (v12 v19 v26 : Vec Ideal S256x1 .f32)
    (h0 : ∀ (p : Fin 256) (r : Fin 2048), v0 (ix2 p r) = A.x (ix2 p (col t r)))
    (h1 : ∀ (p : Fin 256) (r : Fin 2048), v1 (ix2 p r) = A.h (ix2 p (col t r)))
    (h2 : ∀ (p : Fin 256) (r : Fin 2048), v2 (ix2 p r) = A.c (ix2 p (col t r)))
    (h3 : ∀ (p : Fin 64) (r : Fin 2048), v3 (ix2 p r) = A.topic (ix2 p (col t r)))
    (h9 : ∀ (p : Fin 256) (k : Fin 832), v9 (ix2 p k) = stack (sq A.w_ii) (sq A.w_hi) (sq A.w_ci) (tp A.w_bi) p k)
    (h16 : ∀ (p : Fin 256) (k : Fin 832), v16 (ix2 p k) = stack (sq A.w_if) (sq A.w_hf) (sq A.w_cf) (tp A.w_bf) p k)
    (h23 : ∀ (p : Fin 256) (k : Fin 832), v23 (ix2 p k) = stack (sq A.w_ic) (sq A.w_hc) (fun _ _ => 0) (tp A.w_bc) p k)
    (h12 : ∀ p : Fin 256, v12 (ix2 p (0 : Fin 1)) = A.bias_i (ix2 p (0 : Fin 1)))
    (h19 : ∀ p : Fin 256, v19 (ix2 p (0 : Fin 1)) = A.bias_f (ix2 p (0 : Fin 1)))
    (h26 : ∀ p : Fin 256, v26 (ix2 p (0 : Fin 1)) = A.bias_c (ix2 p (0 : Fin 1)))
    (p : Fin 256) (r : Fin 2048) :
    k0_pay3 (F := Ideal) v0 v1 v2 v3 v9 v12 v16 v19 v23 v26 (ix2 p r) = Cert.Cell.cell A p (col t r) := by
  rw [pay3_eq]
  show Ideal.logistic (gateBlock v0 v1 v2 v3 v16 v19 (ix2 p r)) * v2 (ix2 p r)
      + Ideal.logistic (gateBlock v0 v1 v2 v3 v9 v12 (ix2 p r)) * Ideal.tanh (gateBlock v0 v1 v2 v3 v23 v26 (ix2 p r))
    = Cert.Cell.cell A p (col t r)
  rw [gateF_at A t v0 v1 v2 v3 h0 h1 h2 h3 v16 v19 h16 h19 p r, gateI_at A t v0 v1 v2 v3 h0 h1 h2 h3 v9 v12 h9 h12 p r,
    gateC_at A t v0 v1 v2 v3 h0 h1 h2 h3 v23 v26 h23 h26 p r, h2 p r]
  rfl

/-- **The stored hidden state.** At row `p`, column `r` of block `t` it is the specification's new hidden state at
    row `p`, column `col t r`. The hidden state and the output gate's hidden-state weights are real numbers. -/
theorem pay1_at (A : Cert.Cell.Inputs) (t : Fin 32)
    (v0 v1 v2 : Vec Ideal S256x2048 .f32) (v3 : Vec Ideal S64x2048 .f32)
    (v9 v16 v23 : Vec Ideal S256x832 .bf16) (v12 v19 v26 : Vec Ideal S256x1 .f32)
    (h0 : ∀ (p : Fin 256) (r : Fin 2048), v0 (ix2 p r) = A.x (ix2 p (col t r)))
    (h1 : ∀ (p : Fin 256) (r : Fin 2048), v1 (ix2 p r) = A.h (ix2 p (col t r)))
    (h2 : ∀ (p : Fin 256) (r : Fin 2048), v2 (ix2 p r) = A.c (ix2 p (col t r)))
    (h3 : ∀ (p : Fin 64) (r : Fin 2048), v3 (ix2 p r) = A.topic (ix2 p (col t r)))
    (h9 : ∀ (p : Fin 256) (k : Fin 832), v9 (ix2 p k) = stack (sq A.w_ii) (sq A.w_hi) (sq A.w_ci) (tp A.w_bi) p k)
    (h16 : ∀ (p : Fin 256) (k : Fin 832), v16 (ix2 p k) = stack (sq A.w_if) (sq A.w_hf) (sq A.w_cf) (tp A.w_bf) p k)
    (h23 : ∀ (p : Fin 256) (k : Fin 832), v23 (ix2 p k) = stack (sq A.w_ic) (sq A.w_hc) (fun _ _ => 0) (tp A.w_bc) p k)
    (h12 : ∀ p : Fin 256, v12 (ix2 p (0 : Fin 1)) = A.bias_i (ix2 p (0 : Fin 1)))
    (h19 : ∀ p : Fin 256, v19 (ix2 p (0 : Fin 1)) = A.bias_f (ix2 p (0 : Fin 1)))
    (h26 : ∀ p : Fin 256, v26 (ix2 p (0 : Fin 1)) = A.bias_c (ix2 p (0 : Fin 1)))
    (v33 : Vec Ideal S256x832 .bf16) (v36 : Vec Ideal S256x1 .f32)
    (h33 : ∀ (p : Fin 256) (k : Fin 832),
      v33 (ix2 p k) = stack (sq A.w_io) (fun p k => - sq A.w_ho p k) (sq A.w_co) (tp A.w_bo) p k)
    (h36 : ∀ p : Fin 256, v36 (ix2 p (0 : Fin 1)) = A.bias_o (ix2 p (0 : Fin 1)))
    (hfin_h : ∀ i, ∃ x : ℝ, A.h i = (x : EReal)) (hfin_w : ∀ i, ∃ x : ℝ, A.w_ho i = (x : EReal))
    (p : Fin 256) (r : Fin 2048) :
    k0_pay1 (F := Ideal) (k0_pay2 (F := Ideal) v0 v1 v2 v3)
        (k0_pay3 (F := Ideal) v0 v1 v2 v3 v9 v12 v16 v19 v23 v26) v33 v36 (ix2 p r)
      = Cert.Cell.hidden A p (col t r) := by
  rw [pay1_eq]
  show Ideal.logistic (gateBlock v0 v1 v2 v3 v33 v36 (ix2 p r))
      * Ideal.tanh (k0_pay3 (F := Ideal) v0 v1 v2 v3 v9 v12 v16 v19 v23 v26 (ix2 p r))
    = Cert.Cell.hidden A p (col t r)
  rw [gateO_at A t v0 v1 v2 v3 h0 h1 h2 h3 v33 v36 h33 h36 hfin_h hfin_w p r,
    pay3_at A t v0 v1 v2 v3 v9 v16 v23 v12 v19 v26 h0 h1 h2 h3 h9 h16 h23 h12 h19 h26 p r]
  rfl

end Cert.KernelIdeal.CellValue

end
-- ==== Proof.HostStack.lean ====
import proofs.«161503_j2791728742744_2_alg».proof.Proof.CellSpec
import Idealize.ShloMosaic.Lib.Pipeline.Value
import Idealize.ShloMosaic.Lib.ValueIdx

/-!
# Four weight matrices side by side, read at an entry

Concatenating three 256 × 256 arrays and one 256 × 64 array along the column axis gives a 256 × 832 array.
Its entry at row `p` and column `k` is read from the piece whose column span holds `k`
(columns 0–255, 256–511, 512–767, 768–831), at the same row and at column `k` less the widths of the
pieces before it. That is the stacked row `Cert.Cell.stack` of the four matrices.
-/

noncomputable section

namespace Cert.Cell

open Idealize.ShloMosaic Idealize.ShloMosaic.ValueIdx

/-- The concatenation along axis 1 of `w1`, `w2`, `w3` (256 × 256) and `w4` (256 × 64), at row `p` and
    column `k`, is entry `k` of the stacked row `p`. Four cases by where `k` falls; in each, the piece
    is read at row `p` (the off-axis coordinate is unchanged) and at column `k - pre`, where
    `pre = 0, 256, 512, 768` is the total width of the pieces before it. -/
theorem stackCols_apply (w1 w2 w3 : (⟨2, ![256, 256]⟩ : Shape).Idx → EReal) (w4 : (⟨2, ![256, 64]⟩ : Shape).Idx → EReal)
    (h : Shape.Concatenates ([(⟨(⟨2, ![256, 256]⟩ : Shape), w1⟩ : (s : Shape) × (s.Idx → EReal)), ⟨⟨2, ![256, 256]⟩, w2⟩,
      ⟨⟨2, ![256, 256]⟩, w3⟩, ⟨⟨2, ![256, 64]⟩, w4⟩].map (·.1)) (⟨2, ![256, 832]⟩ : Shape) 1)
    (p : Fin 256) (k : Fin 832) :
    concatenate (⟨2, ![256, 832]⟩ : Shape) 1 [⟨⟨2, ![256, 256]⟩, w1⟩, ⟨⟨2, ![256, 256]⟩, w2⟩, ⟨⟨2, ![256, 256]⟩, w3⟩,
        ⟨⟨2, ![256, 64]⟩, w4⟩] h (ix2 p k)
      = stack (fun p k => w1 (ix2 p k)) (fun p k => w2 (ix2 p k)) (fun p k => w3 (ix2 p k))
          (fun p k => w4 (ix2 p k)) p k := by
  unfold stack
  by_cases h1 : k.val < 256
  · rw [dif_pos h1]
    refine (concatenate_apply_piece (1 : Fin 2) _ h (ix2 p k) 0 (by simp) (⟨2, ![256, 256]⟩ : Shape) w1 rfl rfl 0 (by rfl)
      (ix2 p ⟨k.val, h1⟩) ?_ ?_).trans ?_
    · intro b hb
      match b with
      | ⟨0, _⟩ => rfl
      | ⟨1, _⟩ => exact absurd rfl hb
    · show 0 + k.val = k.val
      omega
    · rfl
  rw [dif_neg h1]
  by_cases h2 : k.val < 512
  · rw [dif_pos h2]
    refine (concatenate_apply_piece (1 : Fin 2) _ h (ix2 p k) 1 (by simp) (⟨2, ![256, 256]⟩ : Shape) w2 rfl rfl 256 (by rfl)
      (ix2 p ⟨k.val - 256, by omega⟩) ?_ ?_).trans ?_
    · intro b hb
      match b with
      | ⟨0, _⟩ => rfl
      | ⟨1, _⟩ => exact absurd rfl hb
    · show 256 + (k.val - 256) = k.val
      omega
    · rfl
  rw [dif_neg h2]
  by_cases h3 : k.val < 768
  · rw [dif_pos h3]
    refine (concatenate_apply_piece (1 : Fin 2) _ h (ix2 p k) 2 (by simp) (⟨2, ![256, 256]⟩ : Shape) w3 rfl rfl 512 (by rfl)
      (ix2 p ⟨k.val - 512, by omega⟩) ?_ ?_).trans ?_
    · intro b hb
      match b with
      | ⟨0, _⟩ => rfl
      | ⟨1, _⟩ => exact absurd rfl hb
    · show 512 + (k.val - 512) = k.val
      omega
    · rfl
  rw [dif_neg h3]
  refine (concatenate_apply_piece (1 : Fin 2) _ h (ix2 p k) 3 (by simp) (⟨2, ![256, 64]⟩ : Shape) w4 rfl rfl 768 (by rfl)
    (ix2 p ⟨k.val - 768, by have := k.isLt; omega⟩) ?_ ?_).trans ?_
  · intro b hb
    match b with
    | ⟨0, _⟩ => rfl
    | ⟨1, _⟩ => exact absurd rfl hb
  · show 768 + (k.val - 768) = k.val
    omega
  · rfl

/-- The same for weight arrays, with the coordinate views `sq` and `tp`. -/
theorem stackCols_apply_sq (w1 w2 w3 : FVec Ideal Wsq .f32) (w4 : FVec Ideal Wtp .f32)
    (h : Shape.Concatenates ([(⟨Wsq, w1⟩ : (s : Shape) × (s.Idx → Ideal .f32)), ⟨Wsq, w2⟩, ⟨Wsq, w3⟩,
      ⟨Wtp, w4⟩].map (·.1)) (⟨2, ![256, 832]⟩ : Shape) 1)
    (p : Fin 256) (k : Fin 832) :
    concatenate (⟨2, ![256, 832]⟩ : Shape) 1 [⟨Wsq, w1⟩, ⟨Wsq, w2⟩, ⟨Wsq, w3⟩, ⟨Wtp, w4⟩] h (ix2 p k)
      = stack (sq w1) (sq w2) (sq w3) (tp w4) p k :=
  stackCols_apply w1 w2 w3 w4 h p k

end Cert.Cell

end
-- ==== Proof.HostValues.lean ====
/-
  What the four stacked, narrowed weight arrays hold when the pipelined call is entered.

  Before the call the host lays each gate's four weight matrices side by side — three 256 × 256 matrices and the
  256 × 64 topic matrix, 832 columns in all — and narrows the result to 16 bits, which over the extended reals
  changes nothing. The candidate has no cell-state matrix: a block of zeros stands in its place. The output gate's
  hidden-state matrix is negated first, so that the one product with the stacked column subtracts that term.
  Read at row `p` and column `k`, each of the four arrays is therefore entry `k` of the stacked row `p` of
  Cert.Cell.stack over the gate's own matrices.
-/
import proofs.«161503_j2791728742744_2_alg».proof.Proof.FrameKI
import proofs.«161503_j2791728742744_2_alg».proof.Proof.CellSpec
import proofs.«161503_j2791728742744_2_alg».proof.Proof.HostStack
import Idealize.ShloMosaic.PureOps.Ideal.Laws

set_option maxRecDepth 16384

noncomputable section

namespace Cert.KernelIdeal.HostValues

open Idealize.ShloMosaic Idealize.ShloMosaic.TcCoe Idealize.ShloMosaic.Tactic
open Idealize.SL Idealize.SL.RA Idealize.SL.BI
open Idealize.SL.Sem
open Idealize.ShloMosaic.ValueIdx
open Cert.KernelIdeal Cert.KernelIdeal.Gen Cert.KernelIdeal.Frame

variable (m : (ℓ : Loc nD τ sig) → Buf (Elt Ideal) ℓ)

/-! ## The four arrays as terms of the launch contents -/

/-- The input gate's array: its three square matrices and its topic matrix side by side, narrowed. -/
theorem V_v2 (c : Dev nD) : (V (F := Ideal) m c main_v2 : S256x832.Idx → EReal)
    = truncf (F := Ideal) .bf16 (concatenate S256x832 1 [⟨S256x256, m ((c : Thread nD τ).loc main_arg4)⟩, ⟨S256x256, m ((c : Thread nD τ).loc main_arg5)⟩, ⟨S256x256, m ((c : Thread nD τ).loc main_arg6)⟩, ⟨S256x64, m ((c : Thread nD τ).loc main_arg7)⟩] concatenates_S256x256_S256x256_S256x256_S256x64_S256x832_d1) bitsLt_bf16_f32 := by
  dsimp only [V, hostOps0]; after_results; rfl

/-- The forget gate's array: likewise. -/
theorem V_v4 (c : Dev nD) : (V (F := Ideal) m c main_v4 : S256x832.Idx → EReal)
    = truncf (F := Ideal) .bf16 (concatenate S256x832 1 [⟨S256x256, m ((c : Thread nD τ).loc main_arg9)⟩, ⟨S256x256, m ((c : Thread nD τ).loc main_arg10)⟩, ⟨S256x256, m ((c : Thread nD τ).loc main_arg11)⟩, ⟨S256x64, m ((c : Thread nD τ).loc main_arg12)⟩] concatenates_S256x256_S256x256_S256x256_S256x64_S256x832_d1) bitsLt_bf16_f32 := by
  dsimp only [V, hostOps0]; after_results; rfl

/-- The candidate's array: a zero block stands third, where the other gates have the cell-state matrix. -/
theorem V_v6 (c : Dev nD) : (V (F := Ideal) m c main_v6 : S256x832.Idx → EReal)
    = truncf (F := Ideal) .bf16 (concatenate S256x832 1 [⟨S256x256, m ((c : Thread nD τ).loc main_arg14)⟩, ⟨S256x256, m ((c : Thread nD τ).loc main_arg15)⟩, ⟨S256x256, (broadcastInDim S256x256 ![] bcast_S_S256x256 (constant (F := Ideal) S_ .f32 0x00000000#32))⟩, ⟨S256x64, m ((c : Thread nD τ).loc main_arg16)⟩] concatenates_S256x256_S256x256_S256x256_S256x64_S256x832_d1) bitsLt_bf16_f32 := by
  dsimp only [V, hostOps0]; after_results; rfl

/-- The output gate's array: the hidden-state matrix is negated before it is placed second. -/
theorem V_v9 (c : Dev nD) : (V (F := Ideal) m c main_v9 : S256x832.Idx → EReal)
    = truncf (F := Ideal) .bf16 (concatenate S256x832 1 [⟨S256x256, m ((c : Thread nD τ).loc main_arg18)⟩, ⟨S256x256, Host.negf (F := Ideal) (m ((c : Thread nD τ).loc main_arg19))⟩, ⟨S256x256, m ((c : Thread nD τ).loc main_arg20)⟩, ⟨S256x64, m ((c : Thread nD τ).loc main_arg21)⟩] concatenates_S256x256_S256x256_S256x256_S256x64_S256x832_d1) bitsLt_bf16_f32 := by
  dsimp only [V, hostOps0]; after_results; rfl

/-! ## The four arrays at an entry -/

/-- The twenty-three argument arrays as core `c` finds them at launch, by name. -/
def inputsOf (c : Dev nD) : Cert.Cell.Inputs :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22)⟩

open Cert.Cell (stack sq tp)

/-- The input gate's stacked weights: the four matrices side by side, narrowed (exactly, over the extended reals). -/
theorem V_v2_at (c : Dev nD) (p : Fin 256) (k : Fin 832) :
    (V (F := Ideal) m c main_v2 : S256x832.Idx → EReal) (ix2 p k)
      = stack (sq (inputsOf m c).w_ii) (sq (inputsOf m c).w_hi) (sq (inputsOf m c).w_ci) (tp (inputsOf m c).w_bi) p k := by
  rw [V_v2]
  exact Cert.Cell.stackCols_apply _ _ _ _ concatenates_S256x256_S256x256_S256x256_S256x64_S256x832_d1 p k

/-- The forget gate's stacked weights. -/
theorem V_v4_at (c : Dev nD) (p : Fin 256) (k : Fin 832) :
    (V (F := Ideal) m c main_v4 : S256x832.Idx → EReal) (ix2 p k)
      = stack (sq (inputsOf m c).w_if) (sq (inputsOf m c).w_hf) (sq (inputsOf m c).w_cf) (tp (inputsOf m c).w_bf) p k := by
  rw [V_v4]
  exact Cert.Cell.stackCols_apply _ _ _ _ concatenates_S256x256_S256x256_S256x256_S256x64_S256x832_d1 p k

/-- The zero block: the constant zero broadcast to a square matrix is zero at every entry. -/
theorem zeroBlock_at (j : S256x256.Idx) :
    (broadcastInDim S256x256 ![] bcast_S_S256x256 (constant (F := Ideal) S_ .f32 0x00000000#32)) j = (0 : EReal) := by
  show Ideal.ofBits .f32 0x00000000#32 = 0
  exact Ideal.ofBits_zero_f32

/-- The candidate's stacked weights: a block of zeros stands where the cell-state matrix would. -/
theorem V_v6_at (c : Dev nD) (p : Fin 256) (k : Fin 832) :
    (V (F := Ideal) m c main_v6 : S256x832.Idx → EReal) (ix2 p k)
      = stack (sq (inputsOf m c).w_ic) (sq (inputsOf m c).w_hc) (fun _ _ => 0) (tp (inputsOf m c).w_bc) p k := by
  rw [V_v6]
  refine (Cert.Cell.stackCols_apply _ _ _ _ concatenates_S256x256_S256x256_S256x256_S256x64_S256x832_d1 p k).trans ?_
  have hz : (fun (p k : Fin 256) => (broadcastInDim S256x256 ![] bcast_S_S256x256 (constant (F := Ideal) S_ .f32 0x00000000#32)) (ix2 p k))
      = fun _ _ => (0 : EReal) := funext fun p => funext fun k => zeroBlock_at (ix2 p k)
  exact congrArg (fun f => stack (sq (inputsOf m c).w_ic) (sq (inputsOf m c).w_hc) f (tp (inputsOf m c).w_bc) p k) hz

/-- The output gate's stacked weights: the hidden-state matrix enters negated. -/
theorem V_v9_at (c : Dev nD) (p : Fin 256) (k : Fin 832) :
    (V (F := Ideal) m c main_v9 : S256x832.Idx → EReal) (ix2 p k)
      = stack (sq (inputsOf m c).w_io) (fun p k => - sq (inputsOf m c).w_ho p k) (sq (inputsOf m c).w_co)
          (tp (inputsOf m c).w_bo) p k := by
  rw [V_v9]
  exact Cert.Cell.stackCols_apply _ _ _ _ concatenates_S256x256_S256x256_S256x256_S256x64_S256x832_d1 p k

end Cert.KernelIdeal.HostValues

end
-- ==== Proof.FiniteInputs.lean ====
import proofs.«161503_j2791728742744_2_alg».proof.Defs
import proofs.«161503_j2791728742744_2_alg».proof.Proof.Gen.Pre_finite_inputs
import Idealize.ShloMosaic.Lib.ReduceAll
import Idealize.ShloMosaic.Lib.ValueIdx

/-!
# Under the precondition, every entry of every argument array is a real number

The precondition is a conjunction of 23 blocks, one per argument array `a`:
"for every index `i`, `|a i| < +∞`", written as an absolute value, a comparison against the
pattern of +∞, and a conjunction over both axes. In the extended reals `|x| = max x (-x)`, and
`max x (-x) < ⊤` excludes exactly `x = ⊤` and `x = ⊥`; so each block that evaluates to 1 says
that every entry of its array is (the image of) a real number.
-/

namespace Cert.Finite

open Idealize.ShloMosaic Cert.Pre_finite_inputs

/-- The rank-0 shape has exactly one index. -/
theorem subsingleton_scalar_idx : Subsingleton S_.Idx := ⟨fun a b => funext fun d => d.elim0⟩

/-- An extended real whose absolute value `max x (-x)` is below `⊤` is a real number:
    at `⊤` and at `⊥` the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` (sign 0, exponent all ones, mantissa 0) denotes `+∞`. -/
theorem inf_bits : Ideal.ofBits .f32 0x7F800000#32 = (⊤ : EReal) := by
  simp [Ideal.ofBits, Ideal.ieee]

/-- A comparison `x < ⊤` that evaluates to the word 1 holds. -/
theorem lt_top_of_cmp_olt (x : EReal) (h : Ideal.cmp .olt x ⊤ = 1#1) : x < ⊤ := by
  simp only [Ideal.cmp] at h
  by_contra hc
  simp [hc] at h

/-- One block of the predicate, over any shape `s`: if the conjunction over all indices of
    "`|a i| < +∞`" is 1, then every entry of `a` is a real number. -/
theorem block_real {s : Shape} {axes : List (Fin s.rank)}
    (bc : S_.BroadcastsInDim s (![] : Fin 0 → Fin s.rank)) (red : s.ReducesTo axes S_) (hu : 0 < S_.numel)
    (a : FVec Ideal s .f32) (init : IVec S_ 1) (j : S_.Idx)
    (e : Host.reduce IntOp.andi
          (cmpf .olt (Host.absf a) (broadcastInDim s ![] bc (constant (F := Ideal) S_ .f32 0x7F800000#32)))
          init red hu j = 1#1) :
    ∀ i, ∃ r : ℝ, a i = (r : EReal) := by
  intro i
  haveI := subsingleton_scalar_idx
  -- the conjunction over all indices is 1, so its term at `i` is 1
  have h1 := Host.reduce_andi_all _ init red hu j e i
  -- that term is the comparison `max (a i) (-(a i)) < (the value of the pattern)`
  have h2 : Ideal.cmp .olt (max (a i) (-(a i))) (Ideal.ofBits .f32 0x7F800000#32) = 1#1 := h1
  rw [inf_bits] at h2
  exact real_of_abs_lt_top (a i) (lt_top_of_cmp_olt _ h2)

/-- The predicate is the conjunction of its 23 blocks: if it is 1, every entry of every one of the
    23 argument arrays is a real number. Inside the predicate the blocks are joined as
    `(((b0 ∧ b1) ∧ b2) ∧ …) ∧ b22`, so the hypothesis is split from the outside, last block first.
    The conclusion here is the ordinary (right-nested) conjunction `P0 ∧ (P1 ∧ (… ∧ P22))`, one
    conjunct per array in argument order. -/
theorem real_all [Cert.Pre_finite_inputs.Facts]
    (a0 a1 a2 : FVec Ideal S256x65536 .f32) (a3 : FVec Ideal S64x65536 .f32)
    (a4 a5 a6 : FVec Ideal S256x256 .f32) (a7 : FVec Ideal S256x64 .f32) (a8 : FVec Ideal S256x1 .f32)
    (a9 a10 a11 : FVec Ideal S256x256 .f32) (a12 : FVec Ideal S256x64 .f32) (a13 : FVec Ideal S256x1 .f32)
    (a14 a15 : FVec Ideal S256x256 .f32) (a16 : FVec Ideal S256x64 .f32) (a17 : FVec Ideal S256x1 .f32)
    (a18 a19 a20 : FVec Ideal S256x256 .f32) (a21 : FVec Ideal S256x64 .f32) (a22 : FVec Ideal S256x1 .f32)
    (h : Cert.Pre_finite_inputs.fn (F := Ideal) a0 a1 a2 a3 a4 a5 a6 a7 a8 a9 a10 a11 a12 a13 a14 a15 a16 a17 a18 a19 a20 a21 a22 = (fun _ => 1#1)) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) ∧
    (∀ i, ∃ r : ℝ, a17 i = (r : EReal)) ∧
    (∀ i, ∃ r : ℝ, a18 i = (r : EReal)) ∧
    (∀ i, ∃ r : ℝ, a19 i = (r : EReal)) ∧
    (∀ i, ∃ r : ℝ, a20 i = (r : EReal)) ∧
    (∀ i, ∃ r : ℝ, a21 i = (r : EReal)) ∧
    (∀ i, ∃ r : ℝ, a22 i = (r : EReal)) := by
  have h0 := congrFun h ValueIdx.ix0
  unfold fn fn_part1 fn_part2 fn_part3 fn_part4 fn_part5 fn_part6 at h0
  dsimp only at h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨block_real _ _ _ a0 _ _ e0,
    block_real _ _ _ a1 _ _ e1,
    block_real _ _ _ a2 _ _ e2,
    block_real _ _ _ a3 _ _ e3,
    block_real _ _ _ a4 _ _ e4,
    block_real _ _ _ a5 _ _ e5,
    block_real _ _ _ a6 _ _ e6,
    block_real _ _ _ a7 _ _ e7,
    block_real _ _ _ a8 _ _ e8,
    block_real _ _ _ a9 _ _ e9,
    block_real _ _ _ a10 _ _ e10,
    block_real _ _ _ a11 _ _ e11,
    block_real _ _ _ a12 _ _ e12,
    block_real _ _ _ a13 _ _ e13,
    block_real _ _ _ a14 _ _ e14,
    block_real _ _ _ a15 _ _ e15,
    block_real _ _ _ a16 _ _ e16,
    block_real _ _ _ a17 _ _ e17,
    block_real _ _ _ a18 _ _ e18,
    block_real _ _ _ a19 _ _ e19,
    block_real _ _ _ a20 _ _ e20,
    block_real _ _ _ a21 _ _ e21,
    block_real _ _ _ a22 _ _ e22⟩

/-- The two arrays the algebra needs: the hidden state `a1` and the weight `a19` have real entries. -/
theorem real_of_pre [Cert.Pre_finite_inputs.Facts]
    (a0 a1 a2 : FVec Ideal S256x65536 .f32) (a3 : FVec Ideal S64x65536 .f32)
    (a4 a5 a6 : FVec Ideal S256x256 .f32) (a7 : FVec Ideal S256x64 .f32) (a8 : FVec Ideal S256x1 .f32)
    (a9 a10 a11 : FVec Ideal S256x256 .f32) (a12 : FVec Ideal S256x64 .f32) (a13 : FVec Ideal S256x1 .f32)
    (a14 a15 : FVec Ideal S256x256 .f32) (a16 : FVec Ideal S256x64 .f32) (a17 : FVec Ideal S256x1 .f32)
    (a18 a19 a20 : FVec Ideal S256x256 .f32) (a21 : FVec Ideal S256x64 .f32) (a22 : FVec Ideal S256x1 .f32)
    (h : Cert.Pre_finite_inputs.fn (F := Ideal) a0 a1 a2 a3 a4 a5 a6 a7 a8 a9 a10 a11 a12 a13 a14 a15 a16 a17 a18 a19 a20 a21 a22 = (fun _ => 1#1)) :
    (∀ i, ∃ r : ℝ, a1 i = (r : EReal)) ∧ (∀ i, ∃ r : ℝ, a19 i = (r : EReal)) := by
  obtain ⟨_, r1, _, _, _, _, _, _, _, _, _, _, _, _, _, _, _, _, _, r19, _, _, _⟩ :=
    real_all a0 a1 a2 a3 a4 a5 a6 a7 a8 a9 a10 a11 a12 a13 a14 a15 a16 a17 a18 a19 a20 a21 a22 h
  exact ⟨r1, r19⟩

end Cert.Finite
-- ==== Proof.CellRun.lean ====
/-
  What the idealized kernel's two result arrays hold after the run: the specification's hidden and cell arrays of
  the argument arrays.

  At grid point `t` the body's two stores are, entry by entry, the specification's cell and hidden state at the
  entry's row and at column `2048·t + r`: the state blocks are the arrays' columns `2048·t …`, and each stacked
  weight matrix the host built is the four matrices of its gate side by side (the candidate's third block zero, the
  output gate's second block negated — which is where the hidden state's and that matrix's finiteness is used). The
  32 blocks written back tile each result array, so each array IS the specification's.
-/
import proofs.«161503_j2791728742744_2_alg».proof.Proof.BlockReads
import proofs.«161503_j2791728742744_2_alg».proof.Proof.PayloadAtIndex
import proofs.«161503_j2791728742744_2_alg».proof.Proof.HostValues
import proofs.«161503_j2791728742744_2_alg».proof.Proof.FiniteInputs

set_option maxRecDepth 16384

noncomputable section

namespace Cert.KernelIdeal.CellRun

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.Cell
open Cert.KernelIdeal.HostValues Cert.KernelIdeal.CellValue

variable (m : (ℓ : Loc nD τ sig) → Buf (Elt Ideal) ℓ) (ρ : Dev nD → PrngReg)

theorem hz : (![0, 0] : Fin 2 → Nat) = fun _ => 0 := funext fun a => by fin_cases a <;> rfl

/-! ## The body's stores at an entry -/

/-- The new cell state the body computes from point `t`'s blocks, at entry `(p, r)`, is the specification's cell state
    at row `p` and column `2048·t + r`. -/
theorem cell_block (c : Dev nD) (t : Fin cfg0.N) (p : Fin 256) (r : Fin 2048) :
    cellOfBlocks (iblk m c 0 t) (iblk m c 1 t) (iblk m c 2 t) (iblk m c 3 t) (iblk m c 4 t) (iblk m c 5 t) (iblk m c 6 t)
      (iblk m c 8 t) (iblk m c 9 t) (iblk m c 10 t) (ix2 p r) = cell (inputsOf m c) p (col (pt t) r) := by
  unfold cellOfBlocks
  simp only [View.ld_unit_zero (S := S256x2048) hz, View.ld_unit_zero (S := S64x2048) hz, View.ld_unit_zero (S := S256x832) hz,
    View.ld_unit_zero (S := S256x1) hz]
  exact pay3_at (inputsOf m c) (pt t) _ _ _ _ _ _ _ _ _ _
    (fun p r => (iblk0_at m c t p r).trans (congrFun (V_main_arg0 m c) _))
    (fun p r => (iblk1_at m c t p r).trans (congrFun (V_main_arg1 m c) _))
    (fun p r => (iblk2_at m c t p r).trans (congrFun (V_main_arg2 m c) _))
    (fun p r => (iblk3_at m c t p r).trans (congrFun (V_main_arg3 m c) _))
    (fun p k => (iblk4_at m c t p k).trans (V_v2_at m c p k))
    (fun p k => (iblk5_at m c t p k).trans (V_v4_at m c p k))
    (fun p k => (iblk6_at m c t p k).trans (V_v6_at m c p k))
    (fun p => (iblk8_at m c t p 0).trans (congrFun (V_main_arg8 m c) _))
    (fun p => (iblk9_at m c t p 0).trans (congrFun (V_main_arg13 m c) _))
    (fun p => (iblk10_at m c t p 0).trans (congrFun (V_main_arg17 m c) _))
    p r

/-- What point `t` writes back to the cell-state array is block `t` of the specification's cell array. -/
theorem flushed13_eq (c : Dev nD) (t : Fin cfg0.N) :
    (dats m 0 c).flushed 13 t = ((cfg0.win 13).blk t).view.read (Elt Ideal) (cellArr (inputsOf m c)) := by
  show (cfg0.win 13).cut (grid0.coords t) ((dats m 0 c).after 13 t) = _
  rw [after13]
  unfold out13
  rw [View.canon_unit_zero hz]
  funext j
  obtain ⟨p, r, rfl⟩ : ∃ (p : Fin 256) (r : Fin 2048), j = ix2 p r := ⟨j 0, j 1, eq_ix2 j⟩
  refine (cell_block m c t p r).trans ?_
  show _ = cellArr (inputsOf m c) (((cfg0.win 13).blk t).view.emb (ix2 p r))
  rw [emb13]
  rfl

/-- The cell-state array after the run. -/
theorem final13 (c : Dev nD) : (dats m 0 c).arrAt 13 cfg0.N = cellArr (inputsOf m c) :=
  (dats m 0 c).arrAt_eq_of_cover 13 (cellArr (inputsOf m c)) (fun t _ => flushed13_eq m c t) cover13

section Finite
variable (c : Dev nD) (hh : ∀ i, ∃ x : ℝ, (inputsOf m c).h i = (x : EReal)) (hw : ∀ i, ∃ x : ℝ, (inputsOf m c).w_ho i = (x : EReal))
include hh hw

/-- The hidden state the body computes from point `t`'s blocks, at entry `(p, r)`, is the specification's, given that
    the hidden-state argument and the output gate's hidden-state weights are finite. -/
theorem hidden_block (t : Fin cfg0.N) (p : Fin 256) (r : Fin 2048) :
    k0_pay1 (F := Ideal) (k0_pay2 (View.ld (iblk m c 0 t) rState) (View.ld (iblk m c 1 t) rState) (View.ld (iblk m c 2 t) rState) (View.ld (iblk m c 3 t) rTopic))
      (cellOfBlocks (iblk m c 0 t) (iblk m c 1 t) (iblk m c 2 t) (iblk m c 3 t) (iblk m c 4 t) (iblk m c 5 t) (iblk m c 6 t)
        (iblk m c 8 t) (iblk m c 9 t) (iblk m c 10 t)) (View.ld (iblk m c 7 t) rWeight) (View.ld (iblk m c 11 t) rBias) (ix2 p r)
      = hidden (inputsOf m c) p (col (pt t) r) := by
  unfold cellOfBlocks
  simp only [View.ld_unit_zero (S := S256x2048) hz, View.ld_unit_zero (S := S64x2048) hz, View.ld_unit_zero (S := S256x832) hz,
    View.ld_unit_zero (S := S256x1) hz]
  exact pay1_at (inputsOf m c) (pt t) _ _ _ _ _ _ _ _ _ _
    (fun p r => (iblk0_at m c t p r).trans (congrFun (V_main_arg0 m c) _))
    (fun p r => (iblk1_at m c t p r).trans (congrFun (V_main_arg1 m c) _))
    (fun p r => (iblk2_at m c t p r).trans (congrFun (V_main_arg2 m c) _))
    (fun p r => (iblk3_at m c t p r).trans (congrFun (V_main_arg3 m c) _))
    (fun p k => (iblk4_at m c t p k).trans (V_v2_at m c p k))
    (fun p k => (iblk5_at m c t p k).trans (V_v4_at m c p k))
    (fun p k => (iblk6_at m c t p k).trans (V_v6_at m c p k))
    (fun p => (iblk8_at m c t p 0).trans (congrFun (V_main_arg8 m c) _))
    (fun p => (iblk9_at m c t p 0).trans (congrFun (V_main_arg13 m c) _))
    (fun p => (iblk10_at m c t p 0).trans (congrFun (V_main_arg17 m c) _))
    _ _
    (fun p k => (iblk7_at m c t p k).trans (V_v9_at m c p k))
    (fun p => (iblk11_at m c t p 0).trans (congrFun (V_main_arg22 m c) _))
    hh hw p r

/-- What point `t` writes back to the hidden-state array is block `t` of the specification's hidden array. -/
theorem flushed12_eq (t : Fin cfg0.N) :
    (dats m 0 c).flushed 12 t = ((cfg0.win 12).blk t).view.read (Elt Ideal) (hiddenArr (inputsOf m c)) := by
  show (cfg0.win 12).cut (grid0.coords t) ((dats m 0 c).after 12 t) = _
  rw [after12]
  unfold out12
  rw [View.canon_unit_zero hz]
  funext j
  obtain ⟨p, r, rfl⟩ : ∃ (p : Fin 256) (r : Fin 2048), j = ix2 p r := ⟨j 0, j 1, eq_ix2 j⟩
  refine (hidden_block m c hh hw t p r).trans ?_
  show _ = hiddenArr (inputsOf m c) (((cfg0.win 12).blk t).view.emb (ix2 p r))
  rw [emb12]
  rfl

/-- The hidden-state array after the run. -/
theorem final12 : (dats m 0 c).arrAt 12 cfg0.N = hiddenArr (inputsOf m c) :=
  (dats m 0 c).arrAt_eq_of_cover 12 (hiddenArr (inputsOf m c)) (fun t _ => flushed12_eq m c hh hw t) cover12

end Finite

/-! ## The run, read -/

/-- Under the precondition every weakly fair execution of the idealized kernel ends with its two results at the
    specification's hidden and cell arrays of the arguments, and the arguments unchanged. -/
theorem run [hF : Cert.Pre_finite_inputs.Facts] (hpre : Cert.Pre_KernelIdeal m) :
    θ_run defs (onTc (τ := τ) (main (F := Ideal))) ⟨m, fun _ => 0, ρ⟩ fun r => ∀ c : Dev nD,
      r.2.mem ((c : Thread nD τ).loc main_v10_0) = hiddenArr (inputsOf m c)
      ∧ r.2.mem ((c : Thread nD τ).loc main_v10_1) = cellArr (inputsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => by
      have hr := Cert.Finite.real_of_pre _ _ _ _ _ _ _ _ _ _ _ _ _ _ _ _ _ _ _ _ _ _ _ (hpre c)
      exact ⟨((h c).1 12).trans (final12 m c hr.1 hr.2), ((h c).1 13).trans (final13 m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c))),
        ((h c).2 main_arg4 (Pipeline.mem_restRefs_of main_arg4 (by decide) (by decide))).trans (V_main_arg4 m c),
        ((h c).2 main_arg5 (Pipeline.mem_restRefs_of main_arg5 (by decide) (by decide))).trans (V_main_arg5 m c),
        ((h c).2 main_arg6 (Pipeline.mem_restRefs_of main_arg6 (by decide) (by decide))).trans (V_main_arg6 m c),
        ((h c).2 main_arg7 (Pipeline.mem_restRefs_of main_arg7 (by decide) (by decide))).trans (V_main_arg7 m c),
        ((h c).1 8).trans (((dats m 0 c).arrAt_in 8 rfl _).trans ((A_eq m c 8).trans (V_main_arg8 m c))),
        ((h c).2 main_arg9 (Pipeline.mem_restRefs_of main_arg9 (by decide) (by decide))).trans (V_main_arg9 m c),
        ((h c).2 main_arg10 (Pipeline.mem_restRefs_of main_arg10 (by decide) (by decide))).trans (V_main_arg10 m c),
        ((h c).2 main_arg11 (Pipeline.mem_restRefs_of main_arg11 (by decide) (by decide))).trans (V_main_arg11 m c),
        ((h c).2 main_arg12 (Pipeline.mem_restRefs_of main_arg12 (by decide) (by decide))).trans (V_main_arg12 m c),
        ((h c).1 9).trans (((dats m 0 c).arrAt_in 9 rfl _).trans ((A_eq m c 9).trans (V_main_arg13 m c))),
        ((h c).2 main_arg14 (Pipeline.mem_restRefs_of main_arg14 (by decide) (by decide))).trans (V_main_arg14 m c),
        ((h c).2 main_arg15 (Pipeline.mem_restRefs_of main_arg15 (by decide) (by decide))).trans (V_main_arg15 m c),
        ((h c).2 main_arg16 (Pipeline.mem_restRefs_of main_arg16 (by decide) (by decide))).trans (V_main_arg16 m c),
        ((h c).1 10).trans (((dats m 0 c).arrAt_in 10 rfl _).trans ((A_eq m c 10).trans (V_main_arg17 m c))),
        ((h c).2 main_arg18 (Pipeline.mem_restRefs_of main_arg18 (by decide) (by decide))).trans (V_main_arg18 m c),
        ((h c).2 main_arg19 (Pipeline.mem_restRefs_of main_arg19 (by decide) (by decide))).trans (V_main_arg19 m c),
        ((h c).2 main_arg20 (Pipeline.mem_restRefs_of main_arg20 (by decide) (by decide))).trans (V_main_arg20 m c),
        ((h c).2 main_arg21 (Pipeline.mem_restRefs_of main_arg21 (by decide) (by decide))).trans (V_main_arg21 m c),
        ((h c).1 11).trans (((dats m 0 c).arrAt_in 11 rfl _).trans ((A_eq m c 11).trans (V_main_arg22 m c)))⟩)
    (run_main m ρ)

end Cert.KernelIdeal.CellRun

end
-- ==== Proof.RefIsSpec.lean ====
/-
  The reference program's two results are the cell of the specification.

  The reference computes, for each of the four gates, the pre-activation as a left-to-right sum of matrix
  products (row of a weight matrix against column of a state array) plus the gate's bias broadcast along
  the columns; the sigmoid as 1 / (1 + e^(-z)) with the constant one; and then
  new cell = σ(forget)·c + σ(input)·tanh(candidate), new hidden = σ(output)·tanh(new cell).
  Reading every operation at an index (p, q) gives exactly the terms of Cert.Cell, in the same order, so
  nothing but unfolding is needed.
-/
import proofs.«161503_j2791728742744_2_alg».proof.Proof.Gen.ReferenceIdeal.Read
import proofs.«161503_j2791728742744_2_alg».proof.Proof.CellSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The index maps of the matrix products and of the bias broadcasts, by coordinates -/

/-- The left operand of a product with a square weight matrix is read at (row of the result, k). -/
theorem sqL (i : S256x65536.Idx) (k : Fin 256) : lidx_main_v0 i k = ix2 (i 0) k :=
  funext fun a => by match a with | ⟨0, _⟩ => rfl | ⟨1, _⟩ => rfl

/-- The right operand of a product with a square weight matrix is read at (k, column of the result). -/
theorem sqR (i : S256x65536.Idx) (k : Fin 256) : ridx_main_v0 i k = ix2 k (i 1) :=
  funext fun a => by match a with | ⟨0, _⟩ => rfl | ⟨1, _⟩ => rfl

/-- The left operand of a product with a topic weight matrix is read at (row of the result, k). -/
theorem tpL (i : S256x65536.Idx) (k : Fin 64) : lidx_main_v5 i k = ix2 (i 0) k :=
  funext fun a => by match a with | ⟨0, _⟩ => rfl | ⟨1, _⟩ => rfl

/-- The topic array is read at (k, column of the result). -/
theorem tpR (i : S256x65536.Idx) (k : Fin 64) : ridx_main_v5 i k = ix2 k (i 1) :=
  funext fun a => by match a with | ⟨0, _⟩ => rfl | ⟨1, _⟩ => rfl

/-- A bias column broadcast along the columns is read at (row of the result, 0). -/
theorem biasIdx (i : S256x65536.Idx) : idx_main_v7 i = ix2 (i 0) 0 :=
  funext fun a => by match a with | ⟨0, _⟩ => rfl | ⟨1, _⟩ => rfl

/-- The sum a product with a square weight matrix is at an index: row of the matrix against column of the state. -/
theorem dotS_at (w : FVec Ideal Cert.Cell.Wsq .f32) (s : FVec Ideal Cert.Cell.State .f32) (i : S256x65536.Idx) :
    (∑ k : Fin 256, w (lidx_main_v0 i k) * s (ridx_main_v0 i k)) = Cert.Cell.dotS w s (i 0) (i 1) := by
  unfold Cert.Cell.dotS
  simp only [sqL, sqR]
  rfl

/-- The sum a product with a topic weight matrix is at an index: row of the matrix against column of the topic. -/
theorem dotT_at (w : FVec Ideal Cert.Cell.Wtp .f32) (s : FVec Ideal Cert.Cell.Topic .f32) (i : S256x65536.Idx) :
    (∑ k : Fin 64, w (lidx_main_v5 i k) * s (ridx_main_v5 i k)) = Cert.Cell.dotT w s (i 0) (i 1) := by
  unfold Cert.Cell.dotT
  simp only [tpL, tpR]
  rfl

/-! ## Each matrix product, bias broadcast and constant of the reference at an index -/

-- the input gate's four products and bias
theorem v0_at (A : Cert.Cell.Inputs) (i : S256x65536.Idx) :
    val_main_v0 (F := Ideal) A.x A.w_ii i = Cert.Cell.dotS A.w_ii A.x (i 0) (i 1) :=
  (val_main_v0_apply A.x A.w_ii i).trans (dotS_at A.w_ii A.x i)
theorem v1_at (A : Cert.Cell.Inputs) (i : S256x65536.Idx) :
    val_main_v1 (F := Ideal) A.h A.w_hi i = Cert.Cell.dotS A.w_hi A.h (i 0) (i 1) :=
  (val_main_v1_apply A.h A.w_hi i).trans (dotS_at A.w_hi A.h i)
theorem v3_at (A : Cert.Cell.Inputs) (i : S256x65536.Idx) :
    val_main_v3 (F := Ideal) A.c A.w_ci i = Cert.Cell.dotS A.w_ci A.c (i 0) (i 1) :=
  (val_main_v3_apply A.c A.w_ci i).trans (dotS_at A.w_ci A.c i)
theorem v5_at (A : Cert.Cell.Inputs) (i : S256x65536.Idx) :
    val_main_v5 (F := Ideal) A.topic A.w_bi i = Cert.Cell.dotT A.w_bi A.topic (i 0) (i 1) :=
  (val_main_v5_apply A.topic A.w_bi i).trans (dotT_at A.w_bi A.topic i)
theorem v7_at (A : Cert.Cell.Inputs) (i : S256x65536.Idx) :
    val_main_v7 (F := Ideal) A.bias_i i = A.bias_i (ix2 (i 0) 0) := by
  rw [val_main_v7_apply]
  exact congrArg A.bias_i (biasIdx i)

-- the forget gate's
theorem v15_at (A : Cert.Cell.Inputs) (i : S256x65536.Idx) :
    val_main_v15 (F := Ideal) A.x A.w_if i = Cert.Cell.dotS A.w_if A.x (i 0) (i 1) :=
  (val_main_v15_apply A.x A.w_if i).trans (dotS_at A.w_if A.x i)
theorem v16_at (A : Cert.Cell.Inputs) (i : S256x65536.Idx) :
    val_main_v16 (F := Ideal) A.h A.w_hf i = Cert.Cell.dotS A.w_hf A.h (i 0) (i 1) :=
  (val_main_v16_apply A.h A.w_hf i).trans (dotS_at A.w_hf A.h i)
theorem v18_at (A : Cert.Cell.Inputs) (i : S256x65536.Idx) :
    val_main_v18 (F := Ideal) A.c A.w_cf i = Cert.Cell.dotS A.w_cf A.c (i 0) (i 1) :=
  (val_main_v18_apply A.c A.w_cf i).trans (dotS_at A.w_cf A.c i)
theorem v20_at (A : Cert.Cell.Inputs) (i : S256x65536.Idx) :
    val_main_v20 (F := Ideal) A.topic A.w_bf i = Cert.Cell.dotT A.w_bf A.topic (i 0) (i 1) :=
  (val_main_v20_apply A.topic A.w_bf i).trans (dotT_at A.w_bf A.topic i)
theorem v22_at (A : Cert.Cell.Inputs) (i : S256x65536.Idx) :
    val_main_v22 (F := Ideal) A.bias_f i = A.bias_f (ix2 (i 0) 0) := by
  rw [val_main_v22_apply]
  exact congrArg A.bias_f (biasIdx i)

-- the candidate's
theorem v31_at (A : Cert.Cell.Inputs) (i : S256x65536.Idx) :
    val_main_v31 (F := Ideal) A.x A.w_ic i = Cert.Cell.dotS A.w_ic A.x (i 0) (i 1) :=
  (val_main_v31_apply A.x A.w_ic i).trans (dotS_at A.w_ic A.x i)
theorem v32_at (A : Cert.Cell.Inputs) (i : S256x65536.Idx) :
    val_main_v32 (F := Ideal) A.h A.w_hc i = Cert.Cell.dotS A.w_hc A.h (i 0) (i 1) :=
  (val_main_v32_apply A.h A.w_hc i).trans (dotS_at A.w_hc A.h i)
theorem v34_at (A : Cert.Cell.Inputs) (i : S256x65536.Idx) :
    val_main_v34 (F := Ideal) A.topic A.w_bc i = Cert.Cell.dotT A.w_bc A.topic (i 0) (i 1) :=
  (val_main_v34_apply A.topic A.w_bc i).trans (dotT_at A.w_bc A.topic i)
theorem v36_at (A : Cert.Cell.Inputs) (i : S256x65536.Idx) :
    val_main_v36 (F := Ideal) A.bias_c i = A.bias_c (ix2 (i 0) 0) := by
  rw [val_main_v36_apply]
  exact congrArg A.bias_c (biasIdx i)

-- the output gate's
theorem v41_at (A : Cert.Cell.Inputs) (i : S256x65536.Idx) :
    val_main_v41 (F := Ideal) A.x A.w_io i = Cert.Cell.dotS A.w_io A.x (i 0) (i 1) :=
  (val_main_v41_apply A.x A.w_io i).trans (dotS_at A.w_io A.x i)
theorem v42_at (A : Cert.Cell.Inputs) (i : S256x65536.Idx) :
    val_main_v42 (F := Ideal) A.h A.w_ho i = Cert.Cell.dotS A.w_ho A.h (i 0) (i 1) :=
  (val_main_v42_apply A.h A.w_ho i).trans (dotS_at A.w_ho A.h i)
theorem v44_at (A : Cert.Cell.Inputs) (i : S256x65536.Idx) :
    val_main_v44 (F := Ideal) A.c A.w_co i = Cert.Cell.dotS A.w_co A.c (i 0) (i 1) :=
  (val_main_v44_apply A.c A.w_co i).trans (dotS_at A.w_co A.c i)
theorem v46_at (A : Cert.Cell.Inputs) (i : S256x65536.Idx) :
    val_main_v46 (F := Ideal) A.topic A.w_bo i = Cert.Cell.dotT A.w_bo A.topic (i 0) (i 1) :=
  (val_main_v46_apply A.topic A.w_bo i).trans (dotT_at A.w_bo A.topic i)
theorem v48_at (A : Cert.Cell.Inputs) (i : S256x65536.Idx) :
    val_main_v48 (F := Ideal) A.bias_o i = A.bias_o (ix2 (i 0) 0) := by
  rw [val_main_v48_apply]
  exact congrArg A.bias_o (biasIdx i)

-- the six broadcasts of the constant one
theorem v11_at (i : S256x65536.Idx) :
    val_main_v11 (F := Ideal) i = FloatOps.ofBits (F := Ideal) .f32 0x3F800000#32 :=
  (val_main_v11_apply i).trans (val_main_cst_apply _)
theorem v13_at (i : S256x65536.Idx) :
    val_main_v13 (F := Ideal) i = FloatOps.ofBits (F := Ideal) .f32 0x3F800000#32 :=
  (val_main_v13_apply i).trans (val_main_cst_0_apply _)
theorem v26_at (i : S256x65536.Idx) :
    val_main_v26 (F := Ideal) i = FloatOps.ofBits (F := Ideal) .f32 0x3F800000#32 :=
  (val_main_v26_apply i).trans (val_main_cst_1_apply _)
theorem v28_at (i : S256x65536.Idx) :
    val_main_v28 (F := Ideal) i = FloatOps.ofBits (F := Ideal) .f32 0x3F800000#32 :=
  (val_main_v28_apply i).trans (val_main_cst_2_apply _)
theorem v52_at (i : S256x65536.Idx) :
    val_main_v52 (F := Ideal) i = FloatOps.ofBits (F := Ideal) .f32 0x3F800000#32 :=
  (val_main_v52_apply i).trans (val_main_cst_3_apply _)
theorem v54_at (i : S256x65536.Idx) :
    val_main_v54 (F := Ideal) i = FloatOps.ofBits (F := Ideal) .f32 0x3F800000#32 :=
  (val_main_v54_apply i).trans (val_main_cst_4_apply _)

/-! ## The four pre-activations -/

/-- The reference's input-gate pre-activation is the specification's. -/
theorem preI_at (A : Cert.Cell.Inputs) (i : S256x65536.Idx) :
    val_main_v8 (F := Ideal) A.x A.h A.c A.topic A.w_ii A.w_hi A.w_ci A.w_bi A.bias_i i = Cert.Cell.preI A (i 0) (i 1) := by
  rw [val_main_v8_apply, val_main_v6_apply, val_main_v4_apply, val_main_v2_apply, v0_at, v1_at, v3_at, v5_at, v7_at]
  rfl

/-- The reference's forget-gate pre-activation is the specification's. -/
theorem preF_at (A : Cert.Cell.Inputs) (i : S256x65536.Idx) :
    val_main_v23 (F := Ideal) A.x A.h A.c A.topic A.w_if A.w_hf A.w_cf A.w_bf A.bias_f i = Cert.Cell.preF A (i 0) (i 1) := by
  rw [val_main_v23_apply, val_main_v21_apply, val_main_v19_apply, val_main_v17_apply, v15_at, v16_at, v18_at, v20_at,
    v22_at]
  rfl

/-- The reference's candidate pre-activation (no cell-state term) is the specification's. -/
theorem preC_at (A : Cert.Cell.Inputs) (i : S256x65536.Idx) :
    val_main_v37 (F := Ideal) A.x A.h A.topic A.w_ic A.w_hc A.w_bc A.bias_c i = Cert.Cell.preC A (i 0) (i 1) := by
  rw [val_main_v37_apply, val_main_v35_apply, val_main_v33_apply, v31_at, v32_at, v34_at, v36_at]
  rfl

/-- The reference's output-gate pre-activation (hidden-state term subtracted) is the specification's. -/
theorem preO_at (A : Cert.Cell.Inputs) (i : S256x65536.Idx) :
    val_main_v49 (F := Ideal) A.x A.h A.c A.topic A.w_io A.w_ho A.w_co A.w_bo A.bias_o i = Cert.Cell.preO A (i 0) (i 1) := by
  rw [val_main_v49_apply, val_main_v47_apply, val_main_v45_apply, val_main_v43_apply, v41_at, v42_at, v44_at, v46_at,
    v48_at]
  rfl

/-! ## The sigmoid as the reference spells it -/

/-- One over one plus the exponential of the negation, with the constant one, is the logistic function. -/
theorem logistic_spelled (z : Ideal .f32) :
    FloatOps.hostDivf (F := Ideal) (FloatOps.ofBits .f32 0x3F800000#32)
      (FloatOps.addf (FloatOps.ofBits .f32 0x3F800000#32) (FloatOps.hostUnary .exp (FloatOps.hostNegf z)))
      = Ideal.logistic z := by
  simp only [Ideal.ofBits_def, Ideal.ofBits_one_f32, Ideal.hostDivf_def, Ideal.addf_def, Ideal.hostUnary_exp_def,
    Ideal.hostNegf_def, Ideal.negf_def, Ideal.logistic]

/-- The input gate. -/
theorem sigI_at (A : Cert.Cell.Inputs) (i : S256x65536.Idx) :
    val_main_v14 (F := Ideal) A.x A.h A.c A.topic A.w_ii A.w_hi A.w_ci A.w_bi A.bias_i i = Ideal.logistic (Cert.Cell.preI A (i 0) (i 1)) := by
  rw [val_main_v14_apply, val_main_v12_apply, val_main_v10_apply, val_main_v9_apply, v13_at, v11_at, preI_at]
  exact logistic_spelled _

/-- The forget gate. -/
theorem sigF_at (A : Cert.Cell.Inputs) (i : S256x65536.Idx) :
    val_main_v29 (F := Ideal) A.x A.h A.c A.topic A.w_if A.w_hf A.w_cf A.w_bf A.bias_f i = Ideal.logistic (Cert.Cell.preF A (i 0) (i 1)) := by
  rw [val_main_v29_apply, val_main_v27_apply, val_main_v25_apply, val_main_v24_apply, v28_at, v26_at, preF_at]
  exact logistic_spelled _

/-- The output gate. -/
theorem sigO_at (A : Cert.Cell.Inputs) (i : S256x65536.Idx) :
    val_main_v55 (F := Ideal) A.x A.h A.c A.topic A.w_io A.w_ho A.w_co A.w_bo A.bias_o i = Ideal.logistic (Cert.Cell.preO A (i 0) (i 1)) := by
  rw [val_main_v55_apply, val_main_v53_apply, val_main_v51_apply, val_main_v50_apply, v54_at, v52_at, preO_at]
  exact logistic_spelled _

/-! ## The two results -/

/-- The reference's new cell state at an index is the specification's cell. -/
theorem cell_at (A : Cert.Cell.Inputs) (i : S256x65536.Idx) :
    val_main_v40 (F := Ideal) A.x A.h A.c A.topic A.w_ii A.w_hi A.w_ci A.w_bi A.bias_i A.w_if A.w_hf A.w_cf A.w_bf A.bias_f A.w_ic A.w_hc A.w_bc A.bias_c i = Cert.Cell.cell A (i 0) (i 1) := by
  obtain ⟨p, q, rfl⟩ : ∃ (p : Fin 256) (q : Fin 65536), i = ix2 p q := ⟨i 0, i 1, eq_ix2 i⟩
  rw [val_main_v40_apply, val_main_v30_apply, val_main_v39_apply, val_main_v38_apply, sigF_at, sigI_at, preC_at]
  rfl

/-- The reference's new hidden state at an index is the specification's. -/
theorem hidden_at (A : Cert.Cell.Inputs) (i : S256x65536.Idx) :
    val_main_v57 (F := Ideal) A.x A.h A.c A.topic A.w_ii A.w_hi A.w_ci A.w_bi A.bias_i A.w_if A.w_hf A.w_cf A.w_bf A.bias_f A.w_ic A.w_hc A.w_bc A.bias_c A.w_io A.w_ho A.w_co A.w_bo A.bias_o i = Cert.Cell.hidden A (i 0) (i 1) := by
  rw [val_main_v57_apply, val_main_v56_apply, sigO_at, cell_at]
  rfl

/-- The reference's second result, the new cell state, is the specification's cell array of its arguments (the
    output gate's five arguments do not enter it). -/
theorem cell_eq (x0 x1 x2 : (⟨S256x65536, .f32⟩ : BufTy).Contents (Elt Ideal)) (x3 : (⟨S64x65536, .f32⟩ : BufTy).Contents (Elt Ideal))
    (x4 x5 x6 : (⟨S256x256, .f32⟩ : BufTy).Contents (Elt Ideal)) (x7 : (⟨S256x64, .f32⟩ : BufTy).Contents (Elt Ideal)) (x8 : (⟨S256x1, .f32⟩ : BufTy).Contents (Elt Ideal))
    (x9 x10 x11 : (⟨S256x256, .f32⟩ : BufTy).Contents (Elt Ideal)) (x12 : (⟨S256x64, .f32⟩ : BufTy).Contents (Elt Ideal)) (x13 : (⟨S256x1, .f32⟩ : BufTy).Contents (Elt Ideal))
    (x14 x15 : (⟨S256x256, .f32⟩ : BufTy).Contents (Elt Ideal)) (x16 : (⟨S256x64, .f32⟩ : BufTy).Contents (Elt Ideal)) (x17 : (⟨S256x1, .f32⟩ : BufTy).Contents (Elt Ideal))
    (x18 x19 x20 : (⟨S256x256, .f32⟩ : BufTy).Contents (Elt Ideal)) (x21 : (⟨S256x64, .f32⟩ : BufTy).Contents (Elt Ideal)) (x22 : (⟨S256x1, .f32⟩ : BufTy).Contents (Elt Ideal)) :
    val_main_v40 (F := Ideal) x0 x1 x2 x3 x4 x5 x6 x7 x8 x9 x10 x11 x12 x13 x14 x15 x16 x17
      = Cert.Cell.cellArr ⟨x0, x1, x2, x3, x4, x5, x6, x7, x8, x9, x10, x11, x12, x13, x14, x15, x16, x17, x18, x19, x20, x21, x22⟩ :=
  funext fun i => cell_at ⟨x0, x1, x2, x3, x4, x5, x6, x7, x8, x9, x10, x11, x12, x13, x14, x15, x16, x17, x18, x19, x20, x21, x22⟩ i

/-- The reference's first result, the new hidden state, is the specification's hidden array of its arguments. -/
theorem hidden_eq (x0 x1 x2 : (⟨S256x65536, .f32⟩ : BufTy).Contents (Elt Ideal)) (x3 : (⟨S64x65536, .f32⟩ : BufTy).Contents (Elt Ideal))
    (x4 x5 x6 : (⟨S256x256, .f32⟩ : BufTy).Contents (Elt Ideal)) (x7 : (⟨S256x64, .f32⟩ : BufTy).Contents (Elt Ideal)) (x8 : (⟨S256x1, .f32⟩ : BufTy).Contents (Elt Ideal))
    (x9 x10 x11 : (⟨S256x256, .f32⟩ : BufTy).Contents (Elt Ideal)) (x12 : (⟨S256x64, .f32⟩ : BufTy).Contents (Elt Ideal)) (x13 : (⟨S256x1, .f32⟩ : BufTy).Contents (Elt Ideal))
    (x14 x15 : (⟨S256x256, .f32⟩ : BufTy).Contents (Elt Ideal)) (x16 : (⟨S256x64, .f32⟩ : BufTy).Contents (Elt Ideal)) (x17 : (⟨S256x1, .f32⟩ : BufTy).Contents (Elt Ideal))
    (x18 x19 x20 : (⟨S256x256, .f32⟩ : BufTy).Contents (Elt Ideal)) (x21 : (⟨S256x64, .f32⟩ : BufTy).Contents (Elt Ideal)) (x22 : (⟨S256x1, .f32⟩ : BufTy).Contents (Elt Ideal)) :
    val_main_v57 (F := Ideal) x0 x1 x2 x3 x4 x5 x6 x7 x8 x9 x10 x11 x12 x13 x14 x15 x16 x17 x18 x19 x20 x21 x22
      = Cert.Cell.hiddenArr ⟨x0, x1, x2, x3, x4, x5, x6, x7, x8, x9, x10, x11, x12, x13, x14, x15, x16, x17, x18, x19, x20, x21, x22⟩ :=
  funext fun i => hidden_at ⟨x0, x1, x2, x3, x4, x5, x6, x7, x8, x9, x10, x11, x12, x13, x14, x15, x16, x17, x18, x19, x20, x21, x22⟩ i

end Cert.ReferenceIdeal.RefValue

end
-- ==== Proof.lean ====
/-
  A contextual long short-term memory cell computed two ways, equal over the extended reals.

  The kernel stacks each gate's four weight matrices side by side into one 256 × 832 matrix (the candidate gate's
  cell-state block zero, the output gate's hidden-state block negated), stacks the four input blocks `x | h | c | topic`
  on top of each other, and forms each gate's pre-activation by ONE product over the 832 stacked entries plus the bias.
  The reference forms the same pre-activation as four separate products added (the output gate's hidden-state product
  subtracted) plus the bias. A sum over the 832 stacked entries is the four partial sums added, by associativity; the
  zero block contributes nothing; and moving the minus sign out of the negated block's sum needs the hidden state and
  that weight matrix to be finite, which the precondition gives. The logistic and hyperbolic-tangent gates, the cell
  update `σ(f)·c + σ(i)·tanh(candidate)` and the hidden update `σ(o)·tanh(cell)` are the same expressions on both
  sides: the kernel's logistic and the reference's `1 / (1 + e^(-z))` are one function of an extended real, and a
  change of float format is the identity there.

  Modules: `CellSpec` (the cell, entry by entry), `RefIsSpec` (the reference's two results are the specification's),
  `FrameK` / `FrameKI` (the kernel as printed, and idealized: it runs to the end, faults nowhere, leaves its arguments,
  and what its result arrays hold is named block by block), `BlockReads` (where the blocks sit in their arrays),
  `GateAlgebra`, `PayloadAtIndex`, `HostStack`, `HostValues` (the stacked product at an entry is the four products
  added), `FiniteInputs` (the precondition makes every argument entry a real), `CellRun` (the kernel's two results are
  the specification's). Nothing was rewritten when the kernel was idealized, so the second-to-last claim is trivial.
-/
import proofs.«161503_j2791728742744_2_alg».proof.Defs
import proofs.«161503_j2791728742744_2_alg».proof.Proof.Gen.Kernel
import proofs.«161503_j2791728742744_2_alg».proof.Proof.Gen.KernelIdeal
import proofs.«161503_j2791728742744_2_alg».proof.Proof.Gen.ReferenceIdeal
import proofs.«161503_j2791728742744_2_alg».proof.Proof.Gen.Pre_finite_inputs
import proofs.«161503_j2791728742744_2_alg».proof.Proof.Gen.ReferenceIdeal.Run
import proofs.«161503_j2791728742744_2_alg».proof.Proof.Gen.ReferenceIdeal.Read
import proofs.«161503_j2791728742744_2_alg».proof.Proof.FrameK
import proofs.«161503_j2791728742744_2_alg».proof.Proof.CellRun
import proofs.«161503_j2791728742744_2_alg».proof.Proof.RefIsSpec
import Idealize.ShloMosaic.Adequacy
import Idealize.ShloMosaic.Init

noncomputable section

namespace Cert.Proof

open Idealize.ShloMosaic Idealize.SL.Sem

/-- The kernel as printed runs to its end and leaves its arguments. -/
theorem frame_k : Cert.frame_Kernel := fun m ρ _ => Cert.Kernel.Frame.frame m ρ

/-- So does the idealized kernel. -/
theorem frame_ki : Cert.frame_KernelIdeal := fun m ρ _ => Cert.KernelIdeal.Frame.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel ends with the specification's hidden and cell arrays of its arguments, the reference with the
    same two arrays of ITS arguments, and the arguments agree. -/
theorem algebraic : Cert.algebraic_KernelIdeal_ReferenceIdeal := by
  intro m ρ m' ρ' hpre hagree
  refine ⟨fun c => Cert.Cell.hiddenArr (Cert.KernelIdeal.HostValues.inputsOf m c),
    fun c => Cert.Cell.cellArr (Cert.KernelIdeal.HostValues.inputsOf m c), Cert.KernelIdeal.CellRun.run m ρ hpre, ?_⟩
  -- the reference's arguments, gathered, are the kernel's
  have hA : ∀ c : Dev Cert.KernelIdeal.nD, (⟨(m' ((c.tc : Thread Cert.ReferenceIdeal.nD Cert.ReferenceIdeal.τ).loc Cert.ReferenceIdeal.main_arg0)),
      (m' ((c.tc : Thread Cert.ReferenceIdeal.nD Cert.ReferenceIdeal.τ).loc Cert.ReferenceIdeal.main_arg1)),
      (m' ((c.tc : Thread Cert.ReferenceIdeal.nD Cert.ReferenceIdeal.τ).loc Cert.ReferenceIdeal.main_arg2)),
      (m' ((c.tc : Thread Cert.ReferenceIdeal.nD Cert.ReferenceIdeal.τ).loc Cert.ReferenceIdeal.main_arg3)),
      (m' ((c.tc : Thread Cert.ReferenceIdeal.nD Cert.ReferenceIdeal.τ).loc Cert.ReferenceIdeal.main_arg4)),
      (m' ((c.tc : Thread Cert.ReferenceIdeal.nD Cert.ReferenceIdeal.τ).loc Cert.ReferenceIdeal.main_arg5)),
      (m' ((c.tc : Thread Cert.ReferenceIdeal.nD Cert.ReferenceIdeal.τ).loc Cert.ReferenceIdeal.main_arg6)),
      (m' ((c.tc : Thread Cert.ReferenceIdeal.nD Cert.ReferenceIdeal.τ).loc Cert.ReferenceIdeal.main_arg7)),
      (m' ((c.tc : Thread Cert.ReferenceIdeal.nD Cert.ReferenceIdeal.τ).loc Cert.ReferenceIdeal.main_arg8)),
      (m' ((c.tc : Thread Cert.ReferenceIdeal.nD Cert.ReferenceIdeal.τ).loc Cert.ReferenceIdeal.main_arg9)),
      (m' ((c.tc : Thread Cert.ReferenceIdeal.nD Cert.ReferenceIdeal.τ).loc Cert.ReferenceIdeal.main_arg10)),
      (m' ((c.tc : Thread Cert.ReferenceIdeal.nD Cert.ReferenceIdeal.τ).loc Cert.ReferenceIdeal.main_arg11)),
      (m' ((c.tc : Thread Cert.ReferenceIdeal.nD Cert.ReferenceIdeal.τ).loc Cert.ReferenceIdeal.main_arg12)),
      (m' ((c.tc : Thread Cert.ReferenceIdeal.nD Cert.ReferenceIdeal.τ).loc Cert.ReferenceIdeal.main_arg13)),
      (m' ((c.tc : Thread Cert.ReferenceIdeal.nD Cert.ReferenceIdeal.τ).loc Cert.ReferenceIdeal.main_arg14)),
      (m' ((c.tc : Thread Cert.ReferenceIdeal.nD Cert.ReferenceIdeal.τ).loc Cert.ReferenceIdeal.main_arg15)),
      (m' ((c.tc : Thread Cert.ReferenceIdeal.nD Cert.ReferenceIdeal.τ).loc Cert.ReferenceIdeal.main_arg16)),
      (m' ((c.tc : Thread Cert.ReferenceIdeal.nD Cert.ReferenceIdeal.τ).loc Cert.ReferenceIdeal.main_arg17)),
      (m' ((c.tc : Thread Cert.ReferenceIdeal.nD Cert.ReferenceIdeal.τ).loc Cert.ReferenceIdeal.main_arg18)),
      (m' ((c.tc : Thread Cert.ReferenceIdeal.nD Cert.ReferenceIdeal.τ).loc Cert.ReferenceIdeal.main_arg19)),
      (m' ((c.tc : Thread Cert.ReferenceIdeal.nD Cert.ReferenceIdeal.τ).loc Cert.ReferenceIdeal.main_arg20)),
      (m' ((c.tc : Thread Cert.ReferenceIdeal.nD Cert.ReferenceIdeal.τ).loc Cert.ReferenceIdeal.main_arg21)),
      (m' ((c.tc : Thread Cert.ReferenceIdeal.nD Cert.ReferenceIdeal.τ).loc Cert.ReferenceIdeal.main_arg22))⟩ : Cert.Cell.Inputs)
      = Cert.KernelIdeal.HostValues.inputsOf m c := fun c => by
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]
    rfl
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.ReferenceIdeal.RefValue.hidden_eq (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))).trans
      (congrArg Cert.Cell.hiddenArr (hA c))
  · exact (Cert.ReferenceIdeal.RefValue.cell_eq (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))).trans
      (congrArg Cert.Cell.cellArr (hA c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
